-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x512 .f32) (main_arg1 : IVec S262144 32) (main_arg2 : IVec S262144 32) (main_arg3 : FVec F S512x256 .f32) (main_arg4 : FVec F S256 .f32) (main_arg5 : FVec F S256x128 .f32) (main_arg6 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S8192x256 : Shape := ⟨2, ![8192, 256]⟩
abbrev S1024x512 : Shape := ⟨2, ![1024, 512]⟩
abbrev S1024x1 : Shape := ⟨2, ![1024, 1]⟩
abbrev S1024x256 : Shape := ⟨2, ![1024, 256]⟩
abbrev S262144x256 : Shape := ⟨2, ![262144, 256]⟩
abbrev S1x256 : Shape := ⟨2, ![1, 256]⟩
abbrev S8192x128 : Shape := ⟨2, ![8192, 128]⟩
abbrev S1024x128 : Shape := ⟨2, ![1024, 128]⟩
abbrev S262144x128 : Shape := ⟨2, ![262144, 128]⟩
abbrev S1x128 : Shape := ⟨2, ![1, 128]⟩
abbrev S8192x8192 : Shape := ⟨2, ![8192, 8192]⟩
abbrev S1024x1024 : Shape := ⟨2, ![1024, 1024]⟩
abbrev S128x1024 : Shape := ⟨2, ![128, 1024]⟩

abbrev nBuf : Space → Nat
  | .hbm => 98
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x256, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x256, .f32⟩
  | .hbm, ⟨40, _⟩ => ⟨S_, .f32⟩
  | .hbm, ⟨41, _⟩ => ⟨S8192x256, .f32⟩
  | .hbm, ⟨42, _⟩ => ⟨S262144x1, .i32⟩
  | .hbm, ⟨43, _⟩ => ⟨S8192x256, .f32⟩
  | .hbm, ⟨44, _⟩ => ⟨S8192x1, .f32⟩
  | .hbm, ⟨45, _⟩ => ⟨S8192x256, .f32⟩
  | .hbm, ⟨46, _⟩ => ⟨S8192x256, .f32⟩
  | .hbm, ⟨47, _⟩ => ⟨S1x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S262144, .f32⟩
  | .hbm, ⟨55, _⟩ => ⟨S_, .f32⟩
  | .hbm, ⟨56, _⟩ => ⟨S8192, .f32⟩
  | .hbm, ⟨57, _⟩ => ⟨S262144x1, .i32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S262144x1, .i32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1, .f32⟩
  | .hbm, ⟨76, _⟩ => ⟨S8192x128, .f32⟩
  | .hbm, ⟨77, _⟩ => ⟨S_, .i32⟩
  | .hbm, ⟨78, _⟩ => ⟨S262144, .i32⟩
  | .hbm, ⟨79, _⟩ => ⟨S262144, .i1⟩
  | .hbm, ⟨80, _⟩ => ⟨S_, .i32⟩
  | .hbm, ⟨81, _⟩ => ⟨S262144, .i32⟩
  | .hbm, ⟨82, _⟩ => ⟨S262144, .i32⟩
  | .hbm, ⟨83, _⟩ => ⟨S262144, .i32⟩
  | .hbm, ⟨84, _⟩ => ⟨S262144x1, .i32⟩
  | .hbm, ⟨85, _⟩ => ⟨S262144x128, .f32⟩
  | .hbm, ⟨86, _⟩ => ⟨S_, .f32⟩
  | .hbm, ⟨87, _⟩ => ⟨S8192x128, .f32⟩
  | .hbm, ⟨88, _⟩ => ⟨S262144x1, .i32⟩
  | .hbm, ⟨89, _⟩ => ⟨S8192x128, .f32⟩
  | .hbm, ⟨90, _⟩ => ⟨S8192x1, .f32⟩
  | .hbm, ⟨91, _⟩ => ⟨S8192x128, .f32⟩
  | .hbm, ⟨92, _⟩ => ⟨S8192x128, .f32⟩
  | .hbm, ⟨93, _⟩ => ⟨S1x128, .f32⟩
  | .hbm, ⟨94, _⟩ => ⟨S8192x128, .f32⟩
  | .hbm, ⟨95, _⟩ => ⟨S8192x128, .f32⟩
  | .hbm, ⟨96, _⟩ => ⟨S8192x128, .bf16⟩
  | .hbm, ⟨97, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S1024x1, .f32⟩
  | .local _ .vmem, ⟨4, _⟩ => ⟨S512x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x1, .f32⟩
  | .local _ .vmem, ⟨10, _⟩ => ⟨S1024x1, .f32⟩
  | .local _ .vmem, ⟨11, _⟩ => ⟨S256x128, .f32⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x1024, .f32⟩
  | .local _ .vmem, ⟨19, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_c_16 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_17 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  shapeCasts_S8192_S8192x1 : S8192.ShapeCasts S8192x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  bcast_S_S8192x256 : S_.BroadcastsInDim S8192x256 (![] : Fin 0 → Fin S8192x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S1024x256_S1024x256 : S1024x256.ShapeCasts S1024x256
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  scatter_S8192_S262144x1_S262144_n_0_0_1_wf : ScatterDims.WF S8192 S262144x1 S262144 [] [0] [0] 1
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x128_S1024x128_1_0_0_1_n_n_wf : DotDims.WF S1024x256 S256x128 S1024x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .bf16 = 32 ∨ (Rect.block (s := S8192x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .bf16 = 32 ∨ (Rect.block (s := S8192x128) S1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S8192x256 : Shape := ⟨2, ![8192, 256]⟩
abbrev S262144x256 : Shape := ⟨2, ![262144, 256]⟩
abbrev S1x256 : Shape := ⟨2, ![1, 256]⟩
abbrev S8192x128 : Shape := ⟨2, ![8192, 128]⟩
abbrev S262144x128 : Shape := ⟨2, ![262144, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 110
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x512, .f32⟩
  | .hbm, ⟨31, _⟩ => ⟨S8192x512, .f32⟩
  | .hbm, ⟨32, _⟩ => ⟨S8192x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .f32⟩
  | .hbm, ⟨42, _⟩ => ⟨S_, .f32⟩
  | .hbm, ⟨43, _⟩ => ⟨S8192x256, .f32⟩
  | .hbm, ⟨44, _⟩ => ⟨S262144x1, .i32⟩
  | .hbm, ⟨45, _⟩ => ⟨S8192x256, .f32⟩
  | .hbm, ⟨46, _⟩ => ⟨S8192x1, .f32⟩
  | .hbm, ⟨47, _⟩ => ⟨S8192x256, .f32⟩
  | .hbm, ⟨48, _⟩ => ⟨S8192x256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S262144, .f32⟩
  | .hbm, ⟨57, _⟩ => ⟨S_, .f32⟩
  | .hbm, ⟨58, _⟩ => ⟨S8192, .f32⟩
  | .hbm, ⟨59, _⟩ => ⟨S262144x1, .i32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S262144x1, .i32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192x1, .f32⟩
  | .hbm, ⟨78, _⟩ => ⟨S8192x256, .f32⟩
  | .hbm, ⟨79, _⟩ => ⟨S8192x256, .f32⟩
  | .hbm, ⟨80, _⟩ => ⟨S8192x128, .f32⟩
  | .hbm, ⟨81, _⟩ => ⟨S_, .i32⟩
  | .hbm, ⟨82, _⟩ => ⟨S262144, .i32⟩
  | .hbm, ⟨83, _⟩ => ⟨S262144, .i1⟩
  | .hbm, ⟨84, _⟩ => ⟨S_, .i32⟩
  | .hbm, ⟨85, _⟩ => ⟨S262144, .i32⟩
  | .hbm, ⟨86, _⟩ => ⟨S262144, .i32⟩
  | .hbm, ⟨87, _⟩ => ⟨S262144, .i32⟩
  | .hbm, ⟨88, _⟩ => ⟨S262144x1, .i32⟩
  | .hbm, ⟨89, _⟩ => ⟨S262144x128, .f32⟩
  | .hbm, ⟨90, _⟩ => ⟨S_, .f32⟩
  | .hbm, ⟨91, _⟩ => ⟨S8192x128, .f32⟩
  | .hbm, ⟨92, _⟩ => ⟨S262144x1, .i32⟩
  | .hbm, ⟨93, _⟩ => ⟨S8192x128, .f32⟩
  | .hbm, ⟨94, _⟩ => ⟨S8192x1, .f32⟩
  | .hbm, ⟨95, _⟩ => ⟨S8192x128, .f32⟩
  | .hbm, ⟨96, _⟩ => ⟨S8192x128, .f32⟩
  | .hbm, ⟨97, _⟩ => ⟨S1x128, .f32⟩
  | .hbm, ⟨98, _⟩ => ⟨S8192x128, .f32⟩
  | .hbm, ⟨99, _⟩ => ⟨S8192x128, .f32⟩
  | .hbm, ⟨100, _⟩ => ⟨S128x8192, .f32⟩
  | .hbm, ⟨101, _⟩ => ⟨S8192x8192, .f32⟩
  | .hbm, ⟨102, _⟩ => ⟨S8192x8192, .f32⟩
  | .hbm, ⟨103, _⟩ => ⟨S8192x8192, .f32⟩
  | .hbm, ⟨104, _⟩ => ⟨S_, .f32⟩
  | .hbm, ⟨105, _⟩ => ⟨S8192x8192, .f32⟩
  | .hbm, ⟨106, _⟩ => ⟨S8192x8192, .f32⟩
  | .hbm, ⟨107, _⟩ => ⟨S_, .f32⟩
  | .hbm, ⟨108, _⟩ => ⟨S8192x8192, .f32⟩
  | .hbm, ⟨109, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_15 : Ref sig .tc := ⟨.hbm, 81, rfl⟩
abbrev main_v55 : Ref sig .tc := ⟨.hbm, 82, rfl⟩
abbrev main_v56 : Ref sig .tc := ⟨.hbm, 83, rfl⟩
abbrev main_c_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x8192_S8192x8192_1_0_0_1_n_n_wf : DotDims.WF S8192x128 S128x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Region0Data.lean ====
/-
  The first matmul kernel (grid of 8 row blocks) as the pipeline sees it, at ANY contents `V` of the TensorCore's
  buffers when the call is entered: the block each window reads at a grid point, the one value the body stores
  (the row block of `(x · norm) · W`, the payload `k0_pay1` of the three input blocks), and the proof data of the
  pipeline — every input buffer is left holding its block, the output buffer the payload.
-/
import proofs.«105422_j10024453669136_1_alg».proof.Proof.Gen.KernelIdeal.Launch
import proofs.«105422_j10024453669136_1_alg».proof.Proof.Gen.KernelIdeal.Skeleton
import proofs.«105422_j10024453669136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S1024x512 := Rect.unit (s := S1024x512) ![0, 0] S1024x512.size inb_S1024x512_S1024x512_0_0
abbrev rn0 : Rect S1024x1 := Rect.unit (s := S1024x1) ![0, 0] S1024x1.size inb_S1024x1_S1024x1_0_0
abbrev rw0 : Rect S512x256 := Rect.unit (s := S512x256) ![0, 0] S512x256.size inb_S512x256_S512x256_0_0
abbrev ro0 : Rect S1024x256 := Rect.unit (s := S1024x256) ![0, 0] S1024x256.size inb_S1024x256_S1024x256_0_0

/-- The output window's staging buffer after the body, from the input blocks: its one store. -/
def out0_3 (x0 : Vec F S1024x512 .f32) (x1 : Vec F S1024x1 .f32) (x2 : Vec F S512x256 .f32) : Vec F S1024x256 .f32 :=
  View.canon [⟨ro0, k0_pay1 (View.ld x0 rx0) (View.ld x1 rn0) (View.ld x2 rw0)⟩]

/-- The store covers the buffer. -/
theorem cover0_3 (p0 : Vec F S1024x256 .f32) (y : S1024x256.Idx) :
    ∃ pc ∈ ([⟨ro0, p0⟩] : List (View.Piece (Elt F) S1024x256 .f32)), y ∈ pc.1.set :=
  View.cover_of_tiled [⟨ro0, p0⟩] S1024x256.size (by rfl) y

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Fr

end
-- ==== Proof.Region0Body.lean ====
/-
  The body of the first matmul kernel at a generic grid point, for any float instance: entered with each window's
  staging buffer at what the pipeline put there, it leaves the inputs as they were and the output buffer at the one
  value it stores, the row block of `(x · norm) · W` computed from the three input blocks.
-/
import proofs.«105422_j10024453669136_1_alg».proof.Proof.Region0Data
import proofs.«105422_j10024453669136_1_alg».proof.Proof.Gen.KernelIdeal.Launch
import proofs.«105422_j10024453669136_1_alg».proof.Proof.Gen.KernelIdeal.Skeleton
import proofs.«105422_j10024453669136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers. The three inputs are held at contents `x0`, `x1`, `x2` and the output at
    anything. The body reads each input whole, reads the output (a value it never uses), and overwrites the whole
    output with the payload of the three values read; so it ends with the inputs unchanged and the output at
    `out0_3 x0 x1 x2`: one store over the whole buffer, read back through the pieces, is the canonical view. -/
theorem body_triple0 (c : Dev nD) (E : Set ℕ) (i : grid0.Coords)
    (arg1 : Memref sig .tc .vmem S1024x512 .f32) (harg1 : arg1.IsWhole) (arg2 : Memref sig .tc .vmem S1024x1 .f32) (harg2 : arg2.IsWhole)
    (arg3 : Memref sig .tc .vmem S512x256 .f32) (harg3 : arg3.IsWhole) (arg4 : Memref sig .tc .vmem S1024x256 .f32) (harg4 : arg4.IsWhole)
    (x0 : Vec F S1024x512 .f32) (x1 : Vec F S1024x1 .f32) (x2 : Vec F S512x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is entered with at grid point `t`: the invariant, what the core owes, and each window's current
    staging buffer, whole, at what the pipeline has put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it leaves: the same invariant and debt, and every buffer at the contents the proof data names. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point. Each input buffer holds its window's block, so the triple applies with the blocks
    as the values read; the invariant and the debt do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body_triple0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point: its conjunction over the four windows written out is the
    statement above. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Region1Data.lean ====
/-
  The second matmul kernel (grid of 8 row blocks) as the pipeline sees it, at ANY contents `V` of the TensorCore's
  buffers when the call is entered: the block each window reads at a grid point, the one value the body stores
  (the row block of `(x · norm) · W` of the second layer, the payload `k1_pay1` of the three input blocks), and the
  proof data of the pipeline — every input buffer is left holding its block, the output buffer the payload.
-/
import proofs.«105422_j10024453669136_1_alg».proof.Proof.Gen.KernelIdeal.Launch
import proofs.«105422_j10024453669136_1_alg».proof.Proof.Gen.KernelIdeal.Skeleton
import proofs.«105422_j10024453669136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S1024x256 := Rect.unit (s := S1024x256) ![0, 0] S1024x256.size inb_S1024x256_S1024x256_0_0
abbrev rn1 : Rect S1024x1 := Rect.unit (s := S1024x1) ![0, 0] S1024x1.size inb_S1024x1_S1024x1_0_0
abbrev rw1 : Rect S256x128 := Rect.unit (s := S256x128) ![0, 0] S256x128.size inb_S256x128_S256x128_0_0
abbrev ro1 : Rect S1024x128 := Rect.unit (s := S1024x128) ![0, 0] S1024x128.size inb_S1024x128_S1024x128_0_0

/-- The output window's staging buffer after the body, from the input blocks: its one store. -/
def out1_3 (x0 : Vec F S1024x256 .f32) (x1 : Vec F S1024x1 .f32) (x2 : Vec F S256x128 .f32) : Vec F S1024x128 .f32 :=
  View.canon [⟨ro1, k1_pay1 (View.ld x0 rx1) (View.ld x1 rn1) (View.ld x2 rw1)⟩]

/-- The store covers the buffer. -/
theorem cover1_3 (p0 : Vec F S1024x128 .f32) (y : S1024x128.Idx) :
    ∃ pc ∈ ([⟨ro1, p0⟩] : List (View.Piece (Elt F) S1024x128 .f32)), y ∈ pc.1.set :=
  View.cover_of_tiled [⟨ro1, p0⟩] S1024x128.size (by rfl) y

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Fr

end
-- ==== Proof.Region1Body.lean ====
/-
  The body of the second matmul kernel at a generic grid point, for any float instance: entered with each window's
  staging buffer at what the pipeline put there, it leaves the inputs as they were and the output buffer at the one
  value it stores, the row block of `(h · norm) · W` computed from the three input blocks.
-/
import proofs.«105422_j10024453669136_1_alg».proof.Proof.Region1Data
import proofs.«105422_j10024453669136_1_alg».proof.Proof.Gen.KernelIdeal.Launch
import proofs.«105422_j10024453669136_1_alg».proof.Proof.Gen.KernelIdeal.Skeleton
import proofs.«105422_j10024453669136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers. The three inputs are held at contents `x0`, `x1`, `x2` and the output at
    anything. The body reads each input whole, reads the output (a value it never uses), and overwrites the whole
    output with the payload of the three values read; so it ends with the inputs unchanged and the output at
    `out1_3 x0 x1 x2`: one store over the whole buffer, read back through the pieces, is the canonical view. -/
theorem body_triple1 (c : Dev nD) (E : Set ℕ) (i : grid1.Coords)
    (arg1 : Memref sig .tc .vmem S1024x256 .f32) (harg1 : arg1.IsWhole) (arg2 : Memref sig .tc .vmem S1024x1 .f32) (harg2 : arg2.IsWhole)
    (arg3 : Memref sig .tc .vmem S256x128 .f32) (harg3 : arg3.IsWhole) (arg4 : Memref sig .tc .vmem S1024x128 .f32) (harg4 : arg4.IsWhole)
    (x0 : Vec F S1024x256 .f32) (x1 : Vec F S1024x1 .f32) (x2 : Vec F S256x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is entered with at grid point `t`: the invariant, what the core owes, and each window's current
    staging buffer, whole, at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it leaves: the same invariant and debt, and every buffer at the contents the proof data names. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point. Each input buffer holds its window's block, so the triple applies with the blocks
    as the values read; the invariant and the debt do not depend on the point and pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body_triple1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point: its conjunction over the four windows written out is the
    statement above. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Region2Data.lean ====
/-
  The reconstruction kernel (an 8 × 8 grid of 1024 × 1024 tiles of sigmoid(E · Eᵀ)) as the pipeline sees it, at ANY
  contents `V` of the TensorCore's buffers when the call is entered. Its two input windows read ONE array, the
  embedding in the narrow format: the row block of the tile through window 0, the column block through window 1;
  each holds half of the array's share. The body stores one value, the payload `k2_pay1` of the two blocks.
-/
import proofs.«105422_j10024453669136_1_alg».proof.Proof.Gen.KernelIdeal.Launch
import proofs.«105422_j10024453669136_1_alg».proof.Proof.Gen.KernelIdeal.Skeleton
import proofs.«105422_j10024453669136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev ra2 : Rect S1024x128 := Rect.unit (s := S1024x128) ![0, 0] S1024x128.size inb_S1024x128_S1024x128_0_0
abbrev rb2 : Rect S1024x128 := Rect.unit (s := S1024x128) ![0, 0] S1024x128.size inb_S1024x128_S1024x128_0_0
abbrev ro2 : Rect S1024x1024 := Rect.unit (s := S1024x1024) ![0, 0] S1024x1024.size inb_S1024x1024_S1024x1024_0_0

/-- The output window's staging buffer after the body, from the input blocks: its one store. -/
def out2_2 (x0 : Vec F S1024x128 .bf16) (x1 : Vec F S1024x128 .bf16) : Vec F S1024x1024 .f32 :=
  View.canon [⟨ro2, k2_pay1 (View.ld x0 ra2) (View.ld x1 rb2)⟩]

/-- The store covers the buffer. -/
theorem cover2_2 (p0 : Vec F S1024x1024 .f32) (y : S1024x1024.Idx) :
    ∃ pc ∈ ([⟨ro2, p0⟩] : List (View.Piece (Elt F) S1024x1024 .f32)), y ∈ pc.1.set :=
  View.cover_of_tiled [⟨ro2, p0⟩] S1024x1024.size (by rfl) y

/-- The proof data of the pipeline on core `c`: the two input windows split the shared array's share in halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Fr

end
-- ==== Proof.RunRecords.lean ====
/-
  The program as a list of segments: five stretches of host operations and the three kernel calls. Between two
  segments every unscoped buffer of the core is held whole at known contents: the launch memory, then each host
  stretch applied, then — after a call — the call's output array at what its write-backs leave
  (the write-backs of all grid points folded over the array as the call found it) and every other buffer unchanged.
  Each call is a segment whose entry splits its arrays out of the unscoped buffers and whose exit puts them back.
  The last call hands ONE array (the embedding in the narrow format) to two input windows: that array's points-to is
  split in halves on entry and joined on exit.
  The run then says: every weakly fair execution terminates, and every unscoped buffer ends at the last contents.
-/
import proofs.«105422_j10024453669136_1_alg».proof.Proof.Gen.KernelIdeal.Regions
import proofs.«105422_j10024453669136_1_alg».proof.Proof.Region0Body
import proofs.«105422_j10024453669136_1_alg».proof.Proof.Region1Body
import proofs.«105422_j10024453669136_1_alg».proof.Proof.Region2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each call leaves, and the contents each call is entered from -/

/-- The buffers as the first call finds them: the launch memory after the first host stretch. -/
abbrev Vin0 : (c : Dev nD) → (b : Ref sig .tc) → Buf (Elt F) ((c : Thread nD τ).loc b) := fun c b => Gen.V1 m c b
/-- What the first call leaves in its output array. -/
def o16 (c : Dev nD) : Buf (Elt F) ((c : Thread nD τ).loc main_v16) := (dat0 (Vin0 m) c).arrAt 3 cfg0.N
/-- The calls' outputs so far: the first call's. -/
def outsA : Gen.Outs (F := F) := fun _ r c => if h : r = main_v16 then h ▸ o16 m c else m ((c : Thread nD τ).loc r)
/-- The buffers as the second call finds them. -/
abbrev Vin1 : (c : Dev nD) → (b : Ref sig .tc) → Buf (Elt F) ((c : Thread nD τ).loc b) := fun c b => Gen.V5 m (outsA m) c b
/-- What the second call leaves in its output array. -/
def o50 (c : Dev nD) : Buf (Elt F) ((c : Thread nD τ).loc main_v50) := (dat1 (Vin1 m) c).arrAt 3 cfg1.N
/-- The calls' outputs so far: the first two. -/
def outsB : Gen.Outs (F := F) := fun _ r c =>
  if h : r = main_v16 then h ▸ o16 m c else if h : r = main_v50 then h ▸ o50 m c else m ((c : Thread nD τ).loc r)
/-- The buffers as the third call finds them. -/
abbrev Vin2 : (c : Dev nD) → (b : Ref sig .tc) → Buf (Elt F) ((c : Thread nD τ).loc b) := fun c b => Gen.V7 m (outsB m) c b
/-- What the third call leaves in its output array. -/
def o68 (c : Dev nD) : Buf (Elt F) ((c : Thread nD τ).loc main_v68) := (dat2 (Vin2 m) c).arrAt 2 cfg2.N
/-- The three calls' outputs. -/
def outs : Gen.Outs (F := F) := fun _ r c =>
  if h : r = main_v16 then h ▸ o16 m c else if h : r = main_v50 then h ▸ o50 m c
  else if h : r = main_v68 then h ▸ o68 m c else m ((c : Thread nD τ).loc r)

theorem outsA_16 (J : ℕ) (c : Dev nD) : outsA m J main_v16 c = o16 m c := by unfold outsA; rw [dif_pos rfl]
theorem outsB_16 (J : ℕ) (c : Dev nD) : outsB m J main_v16 c = o16 m c := by unfold outsB; rw [dif_pos rfl]
theorem outsB_50 (J : ℕ) (c : Dev nD) : outsB m J main_v50 c = o50 m c := by
  unfold outsB; rw [dif_neg (by decide), dif_pos rfl]
theorem outs_16 (J : ℕ) (c : Dev nD) : outs m J main_v16 c = o16 m c := by unfold outs; rw [dif_pos rfl]
theorem outs_50 (J : ℕ) (c : Dev nD) : outs m J main_v50 c = o50 m c := by
  unfold outs; rw [dif_neg (by decide), dif_pos rfl]
theorem outs_68 (J : ℕ) (c : Dev nD) : outs m J main_v68 c = o68 m c := by
  unfold outs; rw [dif_neg (by decide), dif_neg (by decide), dif_pos rfl]

/-- The contents before the second call read only the first call's output. -/
theorem V5_outs (c : Dev nD) : Gen.V5 m (outs m) c = Gen.V5 m (outsA m) c := by
  simp only [Gen.V5, Gen.V4, Gen.V3, Gen.V2, outs_16, outsA_16]
/-- The contents before the third call read only the first two calls' outputs. -/
theorem V7_outs (c : Dev nD) : Gen.V7 m (outs m) c = Gen.V7 m (outsB m) c := by
  simp only [Gen.V7, Gen.V6, Gen.V5, Gen.V4, Gen.V3, Gen.V2, outs_16, outs_50, outsB_16, outsB_50]

/-- The buffers as each call leaves them. -/
abbrev Vout0 : (c : Dev nD) → (b : Ref sig .tc) → Buf (Elt F) ((c : Thread nD τ).loc b) := fun c b => Gen.V2 m (outs m) c b
abbrev Vout1 : (c : Dev nD) → (b : Ref sig .tc) → Buf (Elt F) ((c : Thread nD τ).loc b) := fun c b => Gen.V6 m (outs m) c b
abbrev Vout2 : (c : Dev nD) → (b : Ref sig .tc) → Buf (Elt F) ((c : Thread nD τ).loc b) := fun c b => Gen.V8 m (outs m) c b

theorem Vin1_eq (c : Dev nD) (b : Ref sig .tc) : Gen.V5 m (outs m) c b = Vin1 m c b := by rw [V5_outs]
theorem Vin2_eq (c : Dev nD) (b : Ref sig .tc) : Gen.V7 m (outs m) c b = Vin2 m c b := by rw [V7_outs]

/-! ## The proof data family and what rides beside the buffers -/

/-- Every pipeline's proof data, each at its call's entry contents. -/
def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev ER (c : Dev nD) : sProp 𝕄 := iprop((∃ r, prngReg c r) ∗ ∃ W, owes (c : Thread nD τ) (0 : CellTallies nD τ sig Unit) W)

/-- At the call's exit each of its arrays holds what the pipeline leaves: the inputs what they held (an input is never
    written), the output its write-backs folded. -/
theorem hF0 (c : Dev nD) (w : Fin cfg0.W) :
    (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (Gen.V2_of m (outs m) c main_arg0 (by decide)).symm)
  | ⟨1, _⟩ => exact ((dat0 (Vin0 m) c).arrAt_in 1 rfl _).trans ((A_eq0 (Vin0 m) c 1).trans (Gen.V2_of m (outs m) c main_v15 (by decide)).symm)
  | ⟨2, _⟩ => exact ((dat0 (Vin0 m) c).arrAt_in 2 rfl _).trans ((A_eq0 (Vin0 m) c 2).trans (Gen.V2_of m (outs m) c main_arg3 (by decide)).symm)
  | ⟨3, _⟩ =>
    show (dat0 (Vin0 m) c).arrAt 3 cfg0.N = Function.update (Gen.V1 m  c) (Proc.devRef .tc main_v16) (outs m 2 main_v16 c) (Proc.devRef .tc main_v16)
    rw [Function.update_self, outs_16]; rfl

/-- Every buffer that is none of the call's arrays is as the call found it. -/
theorem hrest0 (c : Dev nD) : ∀ b, b ∉ Finset.univ.image (Pipeline.arrRef spec0) → Vout0 m c b = Vin0 m c b :=
  fun b hb => Gen.V2_of m (outs m) c b fun hm => hb (Finset.mem_image.mpr ⟨3, Finset.mem_univ _, (List.mem_singleton.mp hm).symm⟩)

-- a library lemma stated over the pinned configuration unifies with the printed one only when unification may unfold
-- plain definitions in a metavariable's type
set_option backward.isDefEq.respectTransparency.types false in
/-- Call 0 as a segment of the program: entered with every unscoped buffer at the contents before it, left with them
    at the contents after it. Its arrays are split out of the unscoped buffers and put back at their exit contents;
    the generator register goes into the pipeline's invariant and comes back; nothing is owed. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m  c) ∗ ER c)
  post c := iprop(StableHlo.held (c : Thread nD τ) (Pipeline.ucRefs τ sig) (Gen.V2 m (outs m) c) ∗ ER c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: the inputs what they held (an input is never
    written), the output its write-backs folded. -/
theorem hF1 (c : Dev nD) (w : Fin cfg1.W) :
    (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans ((Vin1_eq m c main_v33).symm.trans (Gen.V6_of m (outs m) c main_v33 (by decide)).symm))
  | ⟨1, _⟩ => exact ((dat1 (Vin1 m) c).arrAt_in 1 rfl _).trans ((A_eq1 (Vin1 m) c 1).trans ((Vin1_eq m c main_v49).symm.trans (Gen.V6_of m (outs m) c main_v49 (by decide)).symm))
  | ⟨2, _⟩ => exact ((dat1 (Vin1 m) c).arrAt_in 2 rfl _).trans ((A_eq1 (Vin1 m) c 2).trans ((Vin1_eq m c main_arg5).symm.trans (Gen.V6_of m (outs m) c main_arg5 (by decide)).symm))
  | ⟨3, _⟩ =>
    show (dat1 (Vin1 m) c).arrAt 3 cfg1.N = Function.update (Gen.V5 m (outs m) c) (Proc.devRef .tc main_v50) (outs m 6 main_v50 c) (Proc.devRef .tc main_v50)
    rw [Function.update_self, outs_50]; rfl

/-- Every buffer that is none of the call's arrays is as the call found it. -/
theorem hrest1 (c : Dev nD) : ∀ b, b ∉ Finset.univ.image (Pipeline.arrRef spec1) → Vout1 m c b = Vin1 m c b :=
  fun b hb => (Gen.V6_of m (outs m) c b fun hm => hb (Finset.mem_image.mpr ⟨3, Finset.mem_univ _, (List.mem_singleton.mp hm).symm⟩)).trans (Vin1_eq m c b)

-- a library lemma stated over the pinned configuration unifies with the printed one only when unification may unfold
-- plain definitions in a metavariable's type
set_option backward.isDefEq.respectTransparency.types false in
/-- Call 1 as a segment of the program: entered with every unscoped buffer at the contents before it, left with them
    at the contents after it. Its arrays are split out of the unscoped buffers and put back at their exit contents;
    the generator register goes into the pipeline's invariant and comes back; nothing is owed. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V5 m (outsA m) c) ∗ ER c)
  post c := iprop(StableHlo.held (c : Thread nD τ) (Pipeline.ucRefs τ sig) (Gen.V6 m (outs m) c) ∗ ER c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.Region2Body.lean ====
/-
  The body of the reconstruction kernel at a generic grid point, for any float instance: entered with each window's
  staging buffer at what the pipeline put there, it leaves the two input blocks as they were and the output buffer
  at the one value it stores, the logistic of the product of the first block with the transpose of the second.
-/
import proofs.«105422_j10024453669136_1_alg».proof.Proof.Region2Data
import proofs.«105422_j10024453669136_1_alg».proof.Proof.Gen.KernelIdeal.Launch
import proofs.«105422_j10024453669136_1_alg».proof.Proof.Gen.KernelIdeal.Skeleton
import proofs.«105422_j10024453669136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers. The two inputs are held at contents `x0`, `x1` and the output at anything.
    The body reads each input whole, reads the output (a value it never uses), and overwrites the whole output
    with the payload of the two values read; so it ends with the inputs unchanged and the output at
    `out2_2 x0 x1`: one store over the whole buffer, read back through the pieces, is the canonical view. -/
theorem body_triple2 (c : Dev nD) (E : Set ℕ) (i : grid2.Coords)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__recon_kernel i arg2 harg2 arg3 harg3 arg4 harg4) K := by
  simp only [cc2__recon_kernel_eq_skeleton]; unfold cc2__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is entered with at grid point `t`: the invariant, what the core owes, and each window's current
    staging buffer, whole, at what the pipeline has put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it leaves: the same invariant and debt, and every buffer at the contents the proof data names. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point. Each input buffer holds its window's block, so the triple applies with the blocks
    as the values read; the invariant and the debt do not depend on the point and pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body_triple2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point: its conjunction over the three windows written out is the
    statement above. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.RunRegion2.lean ====
/-
  The reconstruction call as a segment of the program. Its two input windows read ONE array — the embedding in the
  narrow format: window 0 its row blocks, window 1 its column blocks — so the pipeline holds that array twice, each
  time at half of its share. On entry the buffer's points-to is split in halves; on exit (an input is never written,
  so both halves still hold the entry contents) the halves are joined. The output array is held whole throughout.
-/
import proofs.«105422_j10024453669136_1_alg».proof.Proof.RunRecords
import proofs.«105422_j10024453669136_1_alg».proof.Proof.Region2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

theorem img2 : Finset.univ.image (Pipeline.arrRef spec2) = {Pipeline.arrRef spec2 0, Pipeline.arrRef spec2 2} := by decide

/-- The distinct buffers behind the call's arrays: the embedding in the narrow format, and the output. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc (Pipeline.arrRef spec2 0)) ↦{fullShare} W (Pipeline.arrRef spec2 0))
          ∗ (((c : Thread nD τ).loc (Pipeline.arrRef spec2 2)) ↦{fullShare} W (Pipeline.arrRef spec2 2))) := by
  unfold Pipeline.arrBufs
  rw [img2, bigSep_insert (by decide), bigSep_singleton]
  rfl

/-- A window's array is a whole buffer: its points-to over the array's element set is the buffer's. -/
theorem piece2 (c : Dev nD) (w : Fin cfg2.W) (q : PosShare TreeShare) (X : Buf (Elt F) ((cfg2.win w).arr.view.loc (c : Thread nD τ))) :
    ((cfg2.win w).arr.view.loc (c : Thread nD τ) ↦[(cfg2.win w).arr.view.set]{q} X : sProp 𝕄)
      = (((c : Thread nD τ).loc (Pipeline.arrRef spec2 w)) ↦{q} X) := by
  rw [(arr_whole2 w).set_eq_univ]

/-- The pipeline's arrays at contents `G`, window by window, each at its share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{(dat2 V c).share 0} G 0)
          ∗ (((c : Thread nD τ).loc (Pipeline.arrRef spec2 1)) ↦{(dat2 V c).share 1} G 1)
          ∗ (((c : Thread nD τ).loc (Pipeline.arrRef spec2 2)) ↦{(dat2 V c).share 2} G 2)) := by
  unfold Dat.arrays
  rw [bigSep_congr fun w _ => piece2 c w _ _, bigSep_W2]

/-- The two input windows' shares of the embedding make up the full share. -/
theorem halves2 (c : Dev nD) : fullShare ∈ PCS.op ((dat2 V c).share 0) ((dat2 V c).share 1) := PosShare.mem_left_op_right fullShare

/-- ENTRY: the two buffers held whole make the pipeline's arrays at the entry contents, the embedding's points-to split
    in halves between the row window and the column window. -/
theorem arrays2_of_bufs (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H0, H2⟩
  ihave H := (pointsTo_share (halves2 V c)).1 $$ H0
  icases H with ⟨Hl, Hr⟩
  isplitl [Hl]; · iexact Hl
  isplitl [Hr]; · iexact Hr
  iexact H2

/-- EXIT: the pipeline's arrays at contents `G` that are a valuation `W`'s at the arrays make the two buffers held
    whole at `W`: the embedding's halves joined. -/
theorem bufs_of_arrays2 (c : Dev nD) (W : (b : Ref sig .tc) → Buf (Elt F) ((c : Thread nD τ).loc b))
    (G : (w : Fin cfg2.W) → Buf (Elt F) ((cfg2.win w).arr.view.loc (c : Thread nD τ)))
    (h0 : G 0 = W (Pipeline.arrRef spec2 0)) (h1 : G 1 = W (Pipeline.arrRef spec2 1)) (h2 : G 2 = W (Pipeline.arrRef spec2 2)) :
    ((dat2 V c).arrays G : sProp 𝕄)
      ⊢ (Pipeline.arrBufs (Ix := Unit) (Name := ℕ) (U := UR sig nD τ) (Lvl := ℕ) spec2 c W : sProp 𝕄) := by
  rw [arrBufs2_eq, arrays2_eq, h0, h1, h2]
  iintro ⟨Hl, Hr, H2⟩
  isplitl [Hl Hr]
  · iapply (pointsTo_share (halves2 V c)).2
    isplitl [Hl]; · iexact Hl
    iexact Hr
  iexact H2

end Shares

variable (m : (ℓ : Loc nD τ sig) → Buf (Elt F) ℓ)

/-- At the call's exit each of its arrays holds what the pipeline leaves: the embedding (read through both input
    windows, never written) what it held, the output its write-backs folded. -/
theorem hF2 (c : Dev nD) (w : Fin cfg2.W) :
    (dat2 (Vin2 m) c).arrAt w cfg2.N = Vout2 m c (Pipeline.arrRef spec2 w) := by
  match w with
  | ⟨0, _⟩ => exact ((dat2 (Vin2 m) c).arrAt_in 0 rfl _).trans ((A_eq2 (Vin2 m) c 0).trans ((Vin2_eq m c main_v67).symm.trans (Gen.V8_of m (outs m) c main_v67 (by decide)).symm))
  | ⟨1, _⟩ => exact ((dat2 (Vin2 m) c).arrAt_in 1 rfl _).trans ((A_eq2 (Vin2 m) c 1).trans ((Vin2_eq m c main_v67).symm.trans (Gen.V8_of m (outs m) c main_v67 (by decide)).symm))
  | ⟨2, _⟩ =>
    show (dat2 (Vin2 m) c).arrAt 2 cfg2.N = Function.update (Gen.V7 m (outs m) c) (Proc.devRef .tc main_v68) (outs m 8 main_v68 c) (Proc.devRef .tc main_v68)
    rw [Function.update_self, outs_68]; rfl

/-- Every buffer that is none of the call's arrays is as the call found it. -/
theorem hrest2 (c : Dev nD) : ∀ b, b ∉ Finset.univ.image (Pipeline.arrRef spec2) → Vout2 m c b = Vin2 m c b :=
  fun b hb => (Gen.V8_of m (outs m) c b fun hm => hb (Finset.mem_image.mpr ⟨2, Finset.mem_univ _, (List.mem_singleton.mp hm).symm⟩)).trans (Vin2_eq m c b)

-- a library lemma stated over the pinned configuration unifies with the printed one only when unification may unfold
-- plain definitions in a metavariable's type
set_option backward.isDefEq.respectTransparency.types false in
/-- The reconstruction call as a segment: entered with every unscoped buffer at the contents before it, left with
    them at the last contents, beside the generator register and the core owing nothing. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (Gen.V7 m (outsB m) c) ∗ ER c)
  post c := iprop((StableHlo.held (c : Thread nD τ) (Pipeline.ucRefs τ sig) (Gen.V8 m (outs m) c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit : (unscopedBufs (Ix := Unit) (Name := ℕ) (U := UR sig nD τ) (Lvl := ℕ) c (Vin2 m c) : sProp 𝕄)
        ⊢ iprop((pdats m 2 c).arrays ((pdats m 2 c).arrAt · 0) ∗ Pipeline.unscopedRest spec2 c (Vin2 m c)) := by
      rw [Pipeline.unscopedBufs_split₀ cfgs 2 winFacts₀2.arr_unscoped c (Vin2 m c)]
      exact sep_mono (arrays2_of_bufs (Vin2 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (Vin2 m c))
        ⊢ (unscopedBufs (Ix := Unit) (Name := ℕ) (U := UR sig nD τ) (Lvl := ℕ) c (Vout2 m c) : sProp 𝕄) := by
      rw [Pipeline.unscopedBufs_split₀ cfgs 2 winFacts₀2.arr_unscoped c (Vout2 m c)]
      refine sep_mono (bufs_of_arrays2 (Vin2 m) c (Vout2 m c) _ (hF2 m c 0) (hF2 m c 1) (hF2 m c 2)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Fr

end
-- ==== Proof.RunAll.lean ====
/-
  The run of the whole program: the five host stretches and the three kernel calls chained from the launch to the
  return. Every weakly fair execution terminates, and every unscoped buffer of every core ends at the contents the
  fold of the segments gives it; in particular no argument array is written.
-/
import proofs.«105422_j10024453669136_1_alg».proof.Proof.RunRecords
import proofs.«105422_j10024453669136_1_alg».proof.Proof.RunRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread states chain: the contents before the second and third calls read only the earlier calls' outputs. -/
theorem enter1 (c : Dev nD) :
    iprop(StableHlo.held (c : Thread nD τ) (Pipeline.ucRefs τ sig) (Gen.V5 m (outs m) c) ∗ ER (F := F) c) ⊢ (reg1 m).pre c := by
  rw [V5_outs]; exact .rfl
theorem enter2 (c : Dev nD) :
    iprop(StableHlo.held (c : Thread nD τ) (Pipeline.ucRefs τ sig) (Gen.V7 m (outs m) c) ∗ ER (F := F) c) ⊢ (reg2 m).pre c := by
  rw [V7_outs]; exact .rfl

-- the launch theorem's implicit arguments are found by unifying its conclusion with this one, which takes unfolding
-- plain definitions in a metavariable's type
set_option backward.isDefEq.respectTransparency.types false in
/-- THE RUN: from any memory with zero counters every weakly fair execution of the program terminates, nothing
    faulting, and every unscoped buffer of core `c` ends at `Gen.V8 m (outs m) c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv (fun _ => ER) () (pdats m) (reg0 m) (reg1 m) (reg2 m))
    (fun c Q => by
      rewrite [main_chain c, Seg.run_eq_chain,
        show (Gen.segs m (outs m) 𝒱₀ L lv (fun _ => ER) () (pdats m) (reg0 m) (reg1 m) (reg2 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ ER c))
    (Tₙ := fun c => iprop(StableHlo.held (c : Thread nD τ) (Pipeline.ucRefs τ sig) (Gen.V8 m (outs m) c) ∗ ∃ r, prngReg c r))
    (hch := fun c => ⟨.rfl, .rfl, .rfl, .rfl, .rfl, enter1 m c, .rfl, enter2 m c, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c)⟩) (run_all m ρ)

end Cert.KernelIdeal.Fr

end
-- ==== Proof.WRegion0Data.lean ====
/-
  The first matmul kernel (grid of 8 row blocks) as the pipeline sees it, at ANY contents `V` of the TensorCore's
  buffers when the call is entered: the block each window reads at a grid point, the one value the body stores
  (the row block of `(x · norm) · W`, the payload `k0_pay1` of the three input blocks), and the proof data of the
  pipeline — every input buffer is left holding its block, the output buffer the payload.
-/
import proofs.«105422_j10024453669136_1_alg».proof.Proof.Gen.Kernel.Launch
import proofs.«105422_j10024453669136_1_alg».proof.Proof.Gen.Kernel.Skeleton
import proofs.«105422_j10024453669136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S1024x512 := Rect.unit (s := S1024x512) ![0, 0] S1024x512.size inb_S1024x512_S1024x512_0_0
abbrev rn0 : Rect S1024x1 := Rect.unit (s := S1024x1) ![0, 0] S1024x1.size inb_S1024x1_S1024x1_0_0
abbrev rw0 : Rect S512x256 := Rect.unit (s := S512x256) ![0, 0] S512x256.size inb_S512x256_S512x256_0_0
abbrev ro0 : Rect S1024x256 := Rect.unit (s := S1024x256) ![0, 0] S1024x256.size inb_S1024x256_S1024x256_0_0

/-- The output window's staging buffer after the body, from the input blocks: its one store. -/
def out0_3 (x0 : Vec F S1024x512 .f32) (x1 : Vec F S1024x1 .f32) (x2 : Vec F S512x256 .f32) : Vec F S1024x256 .f32 :=
  View.canon [⟨ro0, k0_pay1 (View.ld x0 rx0) (View.ld x1 rn0) (View.ld x2 rw0)⟩]

/-- The store covers the buffer. -/
theorem cover0_3 (p0 : Vec F S1024x256 .f32) (y : S1024x256.Idx) :
    ∃ pc ∈ ([⟨ro0, p0⟩] : List (View.Piece (Elt F) S1024x256 .f32)), y ∈ pc.1.set :=
  View.cover_of_tiled [⟨ro0, p0⟩] S1024x256.size (by rfl) y

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Fr

end
-- ==== Proof.WRegion0Body.lean ====
/-
  The body of the first matmul kernel at a generic grid point, for any float instance: entered with each window's
  staging buffer at what the pipeline put there, it leaves the inputs as they were and the output buffer at the one
  value it stores, the row block of `(x · norm) · W` computed from the three input blocks.
-/
import proofs.«105422_j10024453669136_1_alg».proof.Proof.WRegion0Data
import proofs.«105422_j10024453669136_1_alg».proof.Proof.Gen.Kernel.Launch
import proofs.«105422_j10024453669136_1_alg».proof.Proof.Gen.Kernel.Skeleton
import proofs.«105422_j10024453669136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers. The three inputs are held at contents `x0`, `x1`, `x2` and the output at
    anything. The body reads each input whole, reads the output (a value it never uses), and overwrites the whole
    output with the payload of the three values read; so it ends with the inputs unchanged and the output at
    `out0_3 x0 x1 x2`: one store over the whole buffer, read back through the pieces, is the canonical view. -/
theorem body_triple0 (c : Dev nD) (E : Set ℕ) (i : grid0.Coords)
    (arg1 : Memref sig .tc .vmem S1024x512 .f32) (harg1 : arg1.IsWhole) (arg2 : Memref sig .tc .vmem S1024x1 .f32) (harg2 : arg2.IsWhole)
    (arg3 : Memref sig .tc .vmem S512x256 .f32) (harg3 : arg3.IsWhole) (arg4 : Memref sig .tc .vmem S1024x256 .f32) (harg4 : arg4.IsWhole)
    (x0 : Vec F S1024x512 .f32) (x1 : Vec F S1024x1 .f32) (x2 : Vec F S512x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is entered with at grid point `t`: the invariant, what the core owes, and each window's current
    staging buffer, whole, at what the pipeline has put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it leaves: the same invariant and debt, and every buffer at the contents the proof data names. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point. Each input buffer holds its window's block, so the triple applies with the blocks
    as the values read; the invariant and the debt do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body_triple0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point: its conjunction over the four windows written out is the
    statement above. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.WRegion1Data.lean ====
/-
  The second matmul kernel (grid of 8 row blocks) as the pipeline sees it, at ANY contents `V` of the TensorCore's
  buffers when the call is entered: the block each window reads at a grid point, the one value the body stores
  (the row block of `(x · norm) · W` of the second layer, the payload `k1_pay1` of the three input blocks), and the
  proof data of the pipeline — every input buffer is left holding its block, the output buffer the payload.
-/
import proofs.«105422_j10024453669136_1_alg».proof.Proof.Gen.Kernel.Launch
import proofs.«105422_j10024453669136_1_alg».proof.Proof.Gen.Kernel.Skeleton
import proofs.«105422_j10024453669136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S1024x256 := Rect.unit (s := S1024x256) ![0, 0] S1024x256.size inb_S1024x256_S1024x256_0_0
abbrev rn1 : Rect S1024x1 := Rect.unit (s := S1024x1) ![0, 0] S1024x1.size inb_S1024x1_S1024x1_0_0
abbrev rw1 : Rect S256x128 := Rect.unit (s := S256x128) ![0, 0] S256x128.size inb_S256x128_S256x128_0_0
abbrev ro1 : Rect S1024x128 := Rect.unit (s := S1024x128) ![0, 0] S1024x128.size inb_S1024x128_S1024x128_0_0

/-- The output window's staging buffer after the body, from the input blocks: its one store. -/
def out1_3 (x0 : Vec F S1024x256 .f32) (x1 : Vec F S1024x1 .f32) (x2 : Vec F S256x128 .f32) : Vec F S1024x128 .f32 :=
  View.canon [⟨ro1, k1_pay1 (View.ld x0 rx1) (View.ld x1 rn1) (View.ld x2 rw1)⟩]

/-- The store covers the buffer. -/
theorem cover1_3 (p0 : Vec F S1024x128 .f32) (y : S1024x128.Idx) :
    ∃ pc ∈ ([⟨ro1, p0⟩] : List (View.Piece (Elt F) S1024x128 .f32)), y ∈ pc.1.set :=
  View.cover_of_tiled [⟨ro1, p0⟩] S1024x128.size (by rfl) y

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Fr

end
-- ==== Proof.WRegion1Body.lean ====
/-
  The body of the second matmul kernel at a generic grid point, for any float instance: entered with each window's
  staging buffer at what the pipeline put there, it leaves the inputs as they were and the output buffer at the one
  value it stores, the row block of `(h · norm) · W` computed from the three input blocks.
-/
import proofs.«105422_j10024453669136_1_alg».proof.Proof.WRegion1Data
import proofs.«105422_j10024453669136_1_alg».proof.Proof.Gen.Kernel.Launch
import proofs.«105422_j10024453669136_1_alg».proof.Proof.Gen.Kernel.Skeleton
import proofs.«105422_j10024453669136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers. The three inputs are held at contents `x0`, `x1`, `x2` and the output at
    anything. The body reads each input whole, reads the output (a value it never uses), and overwrites the whole
    output with the payload of the three values read; so it ends with the inputs unchanged and the output at
    `out1_3 x0 x1 x2`: one store over the whole buffer, read back through the pieces, is the canonical view. -/
theorem body_triple1 (c : Dev nD) (E : Set ℕ) (i : grid1.Coords)
    (arg1 : Memref sig .tc .vmem S1024x256 .f32) (harg1 : arg1.IsWhole) (arg2 : Memref sig .tc .vmem S1024x1 .f32) (harg2 : arg2.IsWhole)
    (arg3 : Memref sig .tc .vmem S256x128 .f32) (harg3 : arg3.IsWhole) (arg4 : Memref sig .tc .vmem S1024x128 .f32) (harg4 : arg4.IsWhole)
    (x0 : Vec F S1024x256 .f32) (x1 : Vec F S1024x1 .f32) (x2 : Vec F S256x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is entered with at grid point `t`: the invariant, what the core owes, and each window's current
    staging buffer, whole, at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it leaves: the same invariant and debt, and every buffer at the contents the proof data names. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point. Each input buffer holds its window's block, so the triple applies with the blocks
    as the values read; the invariant and the debt do not depend on the point and pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body_triple1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point: its conjunction over the four windows written out is the
    statement above. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.WRegion2Data.lean ====
/-
  The reconstruction kernel (an 8 × 8 grid of 1024 × 1024 tiles of sigmoid(E · Eᵀ)) as the pipeline sees it, at ANY
  contents `V` of the TensorCore's buffers when the call is entered. Its two input windows read ONE array, the
  embedding in the narrow format: the row block of the tile through window 0, the column block through window 1;
  each holds half of the array's share. The body stores one value, the payload `k2_pay1` of the two blocks.
-/
import proofs.«105422_j10024453669136_1_alg».proof.Proof.Gen.Kernel.Launch
import proofs.«105422_j10024453669136_1_alg».proof.Proof.Gen.Kernel.Skeleton
import proofs.«105422_j10024453669136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev ra2 : Rect S1024x128 := Rect.unit (s := S1024x128) ![0, 0] S1024x128.size inb_S1024x128_S1024x128_0_0
abbrev rb2 : Rect S1024x128 := Rect.unit (s := S1024x128) ![0, 0] S1024x128.size inb_S1024x128_S1024x128_0_0
abbrev ro2 : Rect S1024x1024 := Rect.unit (s := S1024x1024) ![0, 0] S1024x1024.size inb_S1024x1024_S1024x1024_0_0

/-- The output window's staging buffer after the body, from the input blocks: its one store. -/
def out2_2 (x0 : Vec F S1024x128 .bf16) (x1 : Vec F S1024x128 .bf16) : Vec F S1024x1024 .f32 :=
  View.canon [⟨ro2, k2_pay1 (View.ld x0 ra2) (View.ld x1 rb2)⟩]

/-- The store covers the buffer. -/
theorem cover2_2 (p0 : Vec F S1024x1024 .f32) (y : S1024x1024.Idx) :
    ∃ pc ∈ ([⟨ro2, p0⟩] : List (View.Piece (Elt F) S1024x1024 .f32)), y ∈ pc.1.set :=
  View.cover_of_tiled [⟨ro2, p0⟩] S1024x1024.size (by rfl) y

/-- The proof data of the pipeline on core `c`: the two input windows split the shared array's share in halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.Kernel.Fr

end
-- ==== Proof.WRunRecords.lean ====
/-
  The program as a list of segments: five stretches of host operations and the three kernel calls. Between two
  segments every unscoped buffer of the core is held whole at known contents: the launch memory, then each host
  stretch applied, then — after a call — the call's output array at what its write-backs leave
  (the write-backs of all grid points folded over the array as the call found it) and every other buffer unchanged.
  Each call is a segment whose entry splits its arrays out of the unscoped buffers and whose exit puts them back.
  The last call hands ONE array (the embedding in the narrow format) to two input windows: that array's points-to is
  split in halves on entry and joined on exit.
  The run then says: every weakly fair execution terminates, and every unscoped buffer ends at the last contents.
-/
import proofs.«105422_j10024453669136_1_alg».proof.Proof.Gen.Kernel.Regions
import proofs.«105422_j10024453669136_1_alg».proof.Proof.WRegion0Body
import proofs.«105422_j10024453669136_1_alg».proof.Proof.WRegion1Body
import proofs.«105422_j10024453669136_1_alg».proof.Proof.WRegion2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each call leaves, and the contents each call is entered from -/

/-- The buffers as the first call finds them: the launch memory after the first host stretch. -/
abbrev Vin0 : (c : Dev nD) → (b : Ref sig .tc) → Buf (Elt F) ((c : Thread nD τ).loc b) := fun c b => Gen.V1 m c b
/-- What the first call leaves in its output array. -/
def o16 (c : Dev nD) : Buf (Elt F) ((c : Thread nD τ).loc main_v16) := (dat0 (Vin0 m) c).arrAt 3 cfg0.N
/-- The calls' outputs so far: the first call's. -/
def outsA : Gen.Outs (F := F) := fun _ r c => if h : r = main_v16 then h ▸ o16 m c else m ((c : Thread nD τ).loc r)
/-- The buffers as the second call finds them. -/
abbrev Vin1 : (c : Dev nD) → (b : Ref sig .tc) → Buf (Elt F) ((c : Thread nD τ).loc b) := fun c b => Gen.V5 m (outsA m) c b
/-- What the second call leaves in its output array. -/
def o50 (c : Dev nD) : Buf (Elt F) ((c : Thread nD τ).loc main_v50) := (dat1 (Vin1 m) c).arrAt 3 cfg1.N
/-- The calls' outputs so far: the first two. -/
def outsB : Gen.Outs (F := F) := fun _ r c =>
  if h : r = main_v16 then h ▸ o16 m c else if h : r = main_v50 then h ▸ o50 m c else m ((c : Thread nD τ).loc r)
/-- The buffers as the third call finds them. -/
abbrev Vin2 : (c : Dev nD) → (b : Ref sig .tc) → Buf (Elt F) ((c : Thread nD τ).loc b) := fun c b => Gen.V7 m (outsB m) c b
/-- What the third call leaves in its output array. -/
def o68 (c : Dev nD) : Buf (Elt F) ((c : Thread nD τ).loc main_v68) := (dat2 (Vin2 m) c).arrAt 2 cfg2.N
/-- The three calls' outputs. -/
def outs : Gen.Outs (F := F) := fun _ r c =>
  if h : r = main_v16 then h ▸ o16 m c else if h : r = main_v50 then h ▸ o50 m c
  else if h : r = main_v68 then h ▸ o68 m c else m ((c : Thread nD τ).loc r)

theorem outsA_16 (J : ℕ) (c : Dev nD) : outsA m J main_v16 c = o16 m c := by unfold outsA; rw [dif_pos rfl]
theorem outsB_16 (J : ℕ) (c : Dev nD) : outsB m J main_v16 c = o16 m c := by unfold outsB; rw [dif_pos rfl]
theorem outsB_50 (J : ℕ) (c : Dev nD) : outsB m J main_v50 c = o50 m c := by
  unfold outsB; rw [dif_neg (by decide), dif_pos rfl]
theorem outs_16 (J : ℕ) (c : Dev nD) : outs m J main_v16 c = o16 m c := by unfold outs; rw [dif_pos rfl]
theorem outs_50 (J : ℕ) (c : Dev nD) : outs m J main_v50 c = o50 m c := by
  unfold outs; rw [dif_neg (by decide), dif_pos rfl]
theorem outs_68 (J : ℕ) (c : Dev nD) : outs m J main_v68 c = o68 m c := by
  unfold outs; rw [dif_neg (by decide), dif_neg (by decide), dif_pos rfl]

/-- The contents before the second call read only the first call's output. -/
theorem V5_outs (c : Dev nD) : Gen.V5 m (outs m) c = Gen.V5 m (outsA m) c := by
  simp only [Gen.V5, Gen.V4, Gen.V3, Gen.V2, outs_16, outsA_16]
/-- The contents before the third call read only the first two calls' outputs. -/
theorem V7_outs (c : Dev nD) : Gen.V7 m (outs m) c = Gen.V7 m (outsB m) c := by
  simp only [Gen.V7, Gen.V6, Gen.V5, Gen.V4, Gen.V3, Gen.V2, outs_16, outs_50, outsB_16, outsB_50]

/-- The buffers as each call leaves them. -/
abbrev Vout0 : (c : Dev nD) → (b : Ref sig .tc) → Buf (Elt F) ((c : Thread nD τ).loc b) := fun c b => Gen.V2 m (outs m) c b
abbrev Vout1 : (c : Dev nD) → (b : Ref sig .tc) → Buf (Elt F) ((c : Thread nD τ).loc b) := fun c b => Gen.V6 m (outs m) c b
abbrev Vout2 : (c : Dev nD) → (b : Ref sig .tc) → Buf (Elt F) ((c : Thread nD τ).loc b) := fun c b => Gen.V8 m (outs m) c b

theorem Vin1_eq (c : Dev nD) (b : Ref sig .tc) : Gen.V5 m (outs m) c b = Vin1 m c b := by rw [V5_outs]
theorem Vin2_eq (c : Dev nD) (b : Ref sig .tc) : Gen.V7 m (outs m) c b = Vin2 m c b := by rw [V7_outs]

/-! ## The proof data family and what rides beside the buffers -/

/-- Every pipeline's proof data, each at its call's entry contents. -/
def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev ER (c : Dev nD) : sProp 𝕄 := iprop((∃ r, prngReg c r) ∗ ∃ W, owes (c : Thread nD τ) (0 : CellTallies nD τ sig Unit) W)

/-- At the call's exit each of its arrays holds what the pipeline leaves: the inputs what they held (an input is never
    written), the output its write-backs folded. -/
theorem hF0 (c : Dev nD) (w : Fin cfg0.W) :
    (dat0 (Vin0 m) c).arrAt w cfg0.N = Vout0 m c (Pipeline.arrRef spec0 w) := by
  match w with
  | ⟨0, _⟩ => exact ((dat0 (Vin0 m) c).arrAt_in 0 rfl _).trans ((A_eq0 (Vin0 m) c 0).trans (Gen.V2_of m (outs m) c main_arg0 (by decide)).symm)
  | ⟨1, _⟩ => exact ((dat0 (Vin0 m) c).arrAt_in 1 rfl _).trans ((A_eq0 (Vin0 m) c 1).trans (Gen.V2_of m (outs m) c main_v15 (by decide)).symm)
  | ⟨2, _⟩ => exact ((dat0 (Vin0 m) c).arrAt_in 2 rfl _).trans ((A_eq0 (Vin0 m) c 2).trans (Gen.V2_of m (outs m) c main_arg3 (by decide)).symm)
  | ⟨3, _⟩ =>
    show (dat0 (Vin0 m) c).arrAt 3 cfg0.N = Function.update (Gen.V1 m  c) (Proc.devRef .tc main_v16) (outs m 2 main_v16 c) (Proc.devRef .tc main_v16)
    rw [Function.update_self, outs_16]; rfl

/-- Every buffer that is none of the call's arrays is as the call found it. -/
theorem hrest0 (c : Dev nD) : ∀ b, b ∉ Finset.univ.image (Pipeline.arrRef spec0) → Vout0 m c b = Vin0 m c b :=
  fun b hb => Gen.V2_of m (outs m) c b fun hm => hb (Finset.mem_image.mpr ⟨3, Finset.mem_univ _, (List.mem_singleton.mp hm).symm⟩)

-- a library lemma stated over the pinned configuration unifies with the printed one only when unification may unfold
-- plain definitions in a metavariable's type
set_option backward.isDefEq.respectTransparency.types false in
/-- Call 0 as a segment of the program: entered with every unscoped buffer at the contents before it, left with them
    at the contents after it. Its arrays are split out of the unscoped buffers and put back at their exit contents;
    the generator register goes into the pipeline's invariant and comes back; nothing is owed. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m  c) ∗ ER c)
  post c := iprop(StableHlo.held (c : Thread nD τ) (Pipeline.ucRefs τ sig) (Gen.V2 m (outs m) c) ∗ ER c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: the inputs what they held (an input is never
    written), the output its write-backs folded. -/
theorem hF1 (c : Dev nD) (w : Fin cfg1.W) :
    (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans ((Vin1_eq m c main_v33).symm.trans (Gen.V6_of m (outs m) c main_v33 (by decide)).symm))
  | ⟨1, _⟩ => exact ((dat1 (Vin1 m) c).arrAt_in 1 rfl _).trans ((A_eq1 (Vin1 m) c 1).trans ((Vin1_eq m c main_v49).symm.trans (Gen.V6_of m (outs m) c main_v49 (by decide)).symm))
  | ⟨2, _⟩ => exact ((dat1 (Vin1 m) c).arrAt_in 2 rfl _).trans ((A_eq1 (Vin1 m) c 2).trans ((Vin1_eq m c main_arg5).symm.trans (Gen.V6_of m (outs m) c main_arg5 (by decide)).symm))
  | ⟨3, _⟩ =>
    show (dat1 (Vin1 m) c).arrAt 3 cfg1.N = Function.update (Gen.V5 m (outs m) c) (Proc.devRef .tc main_v50) (outs m 6 main_v50 c) (Proc.devRef .tc main_v50)
    rw [Function.update_self, outs_50]; rfl

/-- Every buffer that is none of the call's arrays is as the call found it. -/
theorem hrest1 (c : Dev nD) : ∀ b, b ∉ Finset.univ.image (Pipeline.arrRef spec1) → Vout1 m c b = Vin1 m c b :=
  fun b hb => (Gen.V6_of m (outs m) c b fun hm => hb (Finset.mem_image.mpr ⟨3, Finset.mem_univ _, (List.mem_singleton.mp hm).symm⟩)).trans (Vin1_eq m c b)

-- a library lemma stated over the pinned configuration unifies with the printed one only when unification may unfold
-- plain definitions in a metavariable's type
set_option backward.isDefEq.respectTransparency.types false in
/-- Call 1 as a segment of the program: entered with every unscoped buffer at the contents before it, left with them
    at the contents after it. Its arrays are split out of the unscoped buffers and put back at their exit contents;
    the generator register goes into the pipeline's invariant and comes back; nothing is owed. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V5 m (outsA m) c) ∗ ER c)
  post c := iprop(StableHlo.held (c : Thread nD τ) (Pipeline.ucRefs τ sig) (Gen.V6 m (outs m) c) ∗ ER c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.WRegion2Body.lean ====
/-
  The body of the reconstruction kernel at a generic grid point, for any float instance: entered with each window's
  staging buffer at what the pipeline put there, it leaves the two input blocks as they were and the output buffer
  at the one value it stores, the logistic of the product of the first block with the transpose of the second.
-/
import proofs.«105422_j10024453669136_1_alg».proof.Proof.WRegion2Data
import proofs.«105422_j10024453669136_1_alg».proof.Proof.Gen.Kernel.Launch
import proofs.«105422_j10024453669136_1_alg».proof.Proof.Gen.Kernel.Skeleton
import proofs.«105422_j10024453669136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers. The two inputs are held at contents `x0`, `x1` and the output at anything.
    The body reads each input whole, reads the output (a value it never uses), and overwrites the whole output
    with the payload of the two values read; so it ends with the inputs unchanged and the output at
    `out2_2 x0 x1`: one store over the whole buffer, read back through the pieces, is the canonical view. -/
theorem body_triple2 (c : Dev nD) (E : Set ℕ) (i : grid2.Coords)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__recon_kernel i arg2 harg2 arg3 harg3 arg4 harg4) K := by
  simp only [cc2__recon_kernel_eq_skeleton]; unfold cc2__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is entered with at grid point `t`: the invariant, what the core owes, and each window's current
    staging buffer, whole, at what the pipeline has put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it leaves: the same invariant and debt, and every buffer at the contents the proof data names. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point. Each input buffer holds its window's block, so the triple applies with the blocks
    as the values read; the invariant and the debt do not depend on the point and pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body_triple2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point: its conjunction over the three windows written out is the
    statement above. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.WRunRegion2.lean ====
/-
  The reconstruction call as a segment of the program. Its two input windows read ONE array — the embedding in the
  narrow format: window 0 its row blocks, window 1 its column blocks — so the pipeline holds that array twice, each
  time at half of its share. On entry the buffer's points-to is split in halves; on exit (an input is never written,
  so both halves still hold the entry contents) the halves are joined. The output array is held whole throughout.
-/
import proofs.«105422_j10024453669136_1_alg».proof.Proof.WRunRecords
import proofs.«105422_j10024453669136_1_alg».proof.Proof.WRegion2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

theorem img2 : Finset.univ.image (Pipeline.arrRef spec2) = {Pipeline.arrRef spec2 0, Pipeline.arrRef spec2 2} := by decide

/-- The distinct buffers behind the call's arrays: the embedding in the narrow format, and the output. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc (Pipeline.arrRef spec2 0)) ↦{fullShare} W (Pipeline.arrRef spec2 0))
          ∗ (((c : Thread nD τ).loc (Pipeline.arrRef spec2 2)) ↦{fullShare} W (Pipeline.arrRef spec2 2))) := by
  unfold Pipeline.arrBufs
  rw [img2, bigSep_insert (by decide), bigSep_singleton]
  rfl

/-- A window's array is a whole buffer: its points-to over the array's element set is the buffer's. -/
theorem piece2 (c : Dev nD) (w : Fin cfg2.W) (q : PosShare TreeShare) (X : Buf (Elt F) ((cfg2.win w).arr.view.loc (c : Thread nD τ))) :
    ((cfg2.win w).arr.view.loc (c : Thread nD τ) ↦[(cfg2.win w).arr.view.set]{q} X : sProp 𝕄)
      = (((c : Thread nD τ).loc (Pipeline.arrRef spec2 w)) ↦{q} X) := by
  rw [(arr_whole2 w).set_eq_univ]

/-- The pipeline's arrays at contents `G`, window by window, each at its share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{(dat2 V c).share 0} G 0)
          ∗ (((c : Thread nD τ).loc (Pipeline.arrRef spec2 1)) ↦{(dat2 V c).share 1} G 1)
          ∗ (((c : Thread nD τ).loc (Pipeline.arrRef spec2 2)) ↦{(dat2 V c).share 2} G 2)) := by
  unfold Dat.arrays
  rw [bigSep_congr fun w _ => piece2 c w _ _, bigSep_W2]

/-- The two input windows' shares of the embedding make up the full share. -/
theorem halves2 (c : Dev nD) : fullShare ∈ PCS.op ((dat2 V c).share 0) ((dat2 V c).share 1) := PosShare.mem_left_op_right fullShare

/-- ENTRY: the two buffers held whole make the pipeline's arrays at the entry contents, the embedding's points-to split
    in halves between the row window and the column window. -/
theorem arrays2_of_bufs (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H0, H2⟩
  ihave H := (pointsTo_share (halves2 V c)).1 $$ H0
  icases H with ⟨Hl, Hr⟩
  isplitl [Hl]; · iexact Hl
  isplitl [Hr]; · iexact Hr
  iexact H2

/-- EXIT: the pipeline's arrays at contents `G` that are a valuation `W`'s at the arrays make the two buffers held
    whole at `W`: the embedding's halves joined. -/
theorem bufs_of_arrays2 (c : Dev nD) (W : (b : Ref sig .tc) → Buf (Elt F) ((c : Thread nD τ).loc b))
    (G : (w : Fin cfg2.W) → Buf (Elt F) ((cfg2.win w).arr.view.loc (c : Thread nD τ)))
    (h0 : G 0 = W (Pipeline.arrRef spec2 0)) (h1 : G 1 = W (Pipeline.arrRef spec2 1)) (h2 : G 2 = W (Pipeline.arrRef spec2 2)) :
    ((dat2 V c).arrays G : sProp 𝕄)
      ⊢ (Pipeline.arrBufs (Ix := Unit) (Name := ℕ) (U := UR sig nD τ) (Lvl := ℕ) spec2 c W : sProp 𝕄) := by
  rw [arrBufs2_eq, arrays2_eq, h0, h1, h2]
  iintro ⟨Hl, Hr, H2⟩
  isplitl [Hl Hr]
  · iapply (pointsTo_share (halves2 V c)).2
    isplitl [Hl]; · iexact Hl
    iexact Hr
  iexact H2

end Shares

variable (m : (ℓ : Loc nD τ sig) → Buf (Elt F) ℓ)

/-- At the call's exit each of its arrays holds what the pipeline leaves: the embedding (read through both input
    windows, never written) what it held, the output its write-backs folded. -/
theorem hF2 (c : Dev nD) (w : Fin cfg2.W) :
    (dat2 (Vin2 m) c).arrAt w cfg2.N = Vout2 m c (Pipeline.arrRef spec2 w) := by
  match w with
  | ⟨0, _⟩ => exact ((dat2 (Vin2 m) c).arrAt_in 0 rfl _).trans ((A_eq2 (Vin2 m) c 0).trans ((Vin2_eq m c main_v67).symm.trans (Gen.V8_of m (outs m) c main_v67 (by decide)).symm))
  | ⟨1, _⟩ => exact ((dat2 (Vin2 m) c).arrAt_in 1 rfl _).trans ((A_eq2 (Vin2 m) c 1).trans ((Vin2_eq m c main_v67).symm.trans (Gen.V8_of m (outs m) c main_v67 (by decide)).symm))
  | ⟨2, _⟩ =>
    show (dat2 (Vin2 m) c).arrAt 2 cfg2.N = Function.update (Gen.V7 m (outs m) c) (Proc.devRef .tc main_v68) (outs m 8 main_v68 c) (Proc.devRef .tc main_v68)
    rw [Function.update_self, outs_68]; rfl

/-- Every buffer that is none of the call's arrays is as the call found it. -/
theorem hrest2 (c : Dev nD) : ∀ b, b ∉ Finset.univ.image (Pipeline.arrRef spec2) → Vout2 m c b = Vin2 m c b :=
  fun b hb => (Gen.V8_of m (outs m) c b fun hm => hb (Finset.mem_image.mpr ⟨2, Finset.mem_univ _, (List.mem_singleton.mp hm).symm⟩)).trans (Vin2_eq m c b)

-- a library lemma stated over the pinned configuration unifies with the printed one only when unification may unfold
-- plain definitions in a metavariable's type
set_option backward.isDefEq.respectTransparency.types false in
/-- The reconstruction call as a segment: entered with every unscoped buffer at the contents before it, left with
    them at the last contents, beside the generator register and the core owing nothing. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (Gen.V7 m (outsB m) c) ∗ ER c)
  post c := iprop((StableHlo.held (c : Thread nD τ) (Pipeline.ucRefs τ sig) (Gen.V8 m (outs m) c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit : (unscopedBufs (Ix := Unit) (Name := ℕ) (U := UR sig nD τ) (Lvl := ℕ) c (Vin2 m c) : sProp 𝕄)
        ⊢ iprop((pdats m 2 c).arrays ((pdats m 2 c).arrAt · 0) ∗ Pipeline.unscopedRest spec2 c (Vin2 m c)) := by
      rw [Pipeline.unscopedBufs_split₀ cfgs 2 winFacts₀2.arr_unscoped c (Vin2 m c)]
      exact sep_mono (arrays2_of_bufs (Vin2 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (Vin2 m c))
        ⊢ (unscopedBufs (Ix := Unit) (Name := ℕ) (U := UR sig nD τ) (Lvl := ℕ) c (Vout2 m c) : sProp 𝕄) := by
      rw [Pipeline.unscopedBufs_split₀ cfgs 2 winFacts₀2.arr_unscoped c (Vout2 m c)]
      refine sep_mono (bufs_of_arrays2 (Vin2 m) c (Vout2 m c) _ (hF2 m c 0) (hF2 m c 1) (hF2 m c 2)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Fr

end
-- ==== Proof.WRunAll.lean ====
/-
  The run of the whole program: the five host stretches and the three kernel calls chained from the launch to the
  return. Every weakly fair execution terminates, and every unscoped buffer of every core ends at the contents the
  fold of the segments gives it; in particular no argument array is written.
-/
import proofs.«105422_j10024453669136_1_alg».proof.Proof.WRunRecords
import proofs.«105422_j10024453669136_1_alg».proof.Proof.WRunRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread states chain: the contents before the second and third calls read only the earlier calls' outputs. -/
theorem enter1 (c : Dev nD) :
    iprop(StableHlo.held (c : Thread nD τ) (Pipeline.ucRefs τ sig) (Gen.V5 m (outs m) c) ∗ ER (F := F) c) ⊢ (reg1 m).pre c := by
  rw [V5_outs]; exact .rfl
theorem enter2 (c : Dev nD) :
    iprop(StableHlo.held (c : Thread nD τ) (Pipeline.ucRefs τ sig) (Gen.V7 m (outs m) c) ∗ ER (F := F) c) ⊢ (reg2 m).pre c := by
  rw [V7_outs]; exact .rfl

-- the launch theorem's implicit arguments are found by unifying its conclusion with this one, which takes unfolding
-- plain definitions in a metavariable's type
set_option backward.isDefEq.respectTransparency.types false in
/-- THE RUN: from any memory with zero counters every weakly fair execution of the program terminates, nothing
    faulting, and every unscoped buffer of core `c` ends at `Gen.V8 m (outs m) c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv (fun _ => ER) () (pdats m) (reg0 m) (reg1 m) (reg2 m))
    (fun c Q => by
      rewrite [main_chain c, Seg.run_eq_chain,
        show (Gen.segs m (outs m) 𝒱₀ L lv (fun _ => ER) () (pdats m) (reg0 m) (reg1 m) (reg2 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ ER c))
    (Tₙ := fun c => iprop(StableHlo.held (c : Thread nD τ) (Pipeline.ucRefs τ sig) (Gen.V8 m (outs m) c) ∗ ∃ r, prngReg c r))
    (hch := fun c => ⟨.rfl, .rfl, .rfl, .rfl, .rfl, enter1 m c, .rfl, enter2 m c, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c)⟩) (run_all m ρ)

end Cert.Kernel.Fr

end
-- ==== Proof.KernelPayloads.lean ====
import proofs.«105422_j10024453669136_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Facts₀ Cert.KernelIdeal.Facts
open scoped BigOperators

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A plain matrix product's operand indices: for dimension numbers that contract the left operand's axis 1 with the
    right operand's axis 0 and have no batch axis, the left operand is read at `(row, k)` and the right at `(k, column)`. -/
theorem dot_idx {m kk n : ℕ} (D : DotDims ⟨2, ![m, kk]⟩ ⟨2, ![kk, n]⟩ ⟨2, ![m, n]⟩)
    (hr : D.contr.rank = 1) (hs : D.contr.size ⟨0, by omega⟩ = kk)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (p : Fin m) (q : Fin n) (k : Fin kk) :
    D.lhsIdx (ix2 p q) ((contrEquiv1 D kk hr hs).symm k) = ix2 p k
      ∧ D.rhsIdx (ix2 p q) ((contrEquiv1 D kk hr hs).symm k) = ix2 k q := by
  have hk := contrEquiv1_symm_val D kk hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- The first layer's dimension numbers read the left operand's row and the right operand's column. -/
theorem dot0_lhs0 (i : S1024x256.Idx) (c : dot_S1024x512_S512x256_S1024x256_1_0_0_1_n_n.contr.Idx) :
    (dot_S1024x512_S512x256_S1024x256_1_0_0_1_n_n.lhsIdx i c 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem dot0_rhs1 (i : S1024x256.Idx) (c : dot_S1024x512_S512x256_S1024x256_1_0_0_1_n_n.contr.Idx) :
    (dot_S1024x512_S512x256_S1024x256_1_0_0_1_n_n.rhsIdx i c 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The first layer's payload at `(p, q)`: the row of `x` scaled by the row's norm, against the column of `w`. -/
theorem pay0_apply (x : Vec Ideal S1024x512 .f32) (n : Vec Ideal S1024x1 .f32) (w : Vec Ideal S512x256 .f32)
    (p : Fin 1024) (q : Fin 256) :
    Gen.k0_pay1 (F := Ideal) x n w (ix2 p q)
      = ∑ k : Fin 512, (x (ix2 p k) * n (ix2 p 0)) * w (ix2 k q) := by
  unfold Gen.k0_pay1
  refine (Ideal.matmul_constant_zero_apply dot_S1024x512_S512x256_S1024x256_1_0_0_1_n_n none _ _ _).trans ?_
  rw [← Equiv.sum_comp (contrEquiv1 dot_S1024x512_S512x256_S1024x256_1_0_0_1_n_n 512 rfl rfl).symm]
  refine Finset.sum_congr rfl fun k _ => ?_
  obtain ⟨el, er⟩ := dot_idx dot_S1024x512_S512x256_S1024x256_1_0_0_1_n_n rfl rfl dot0_lhs0
    (fun i c => dot_S1024x512_S512x256_S1024x256_1_0_0_1_n_n.lhsIdx_val_of_single rfl i c)
    (fun i c => dot_S1024x512_S512x256_S1024x256_1_0_0_1_n_n.rhsIdx_val_of_single rfl i c) dot0_rhs1 p q k
  rw [el, er]
  show x (ix2 p k) * broadcastTo S1024x512 (shapeCast S1024x1 n shapeCasts_S1024x1_S1024x1) broadcasts_S1024x1_S1024x512 (ix2 p k)
      * w (ix2 k q) = _
  rw [shapeCast_self, broadcastTo_a1_ab_apply]

/-- The second layer's dimension numbers read the left operand's row and the right operand's column. -/
theorem dot1_lhs0 (i : S1024x128.Idx) (c : dot_S1024x256_S256x128_S1024x128_1_0_0_1_n_n.contr.Idx) :
    (dot_S1024x256_S256x128_S1024x128_1_0_0_1_n_n.lhsIdx i c 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
theorem dot1_rhs1 (i : S1024x128.Idx) (c : dot_S1024x256_S256x128_S1024x128_1_0_0_1_n_n.contr.Idx) :
    (dot_S1024x256_S256x128_S1024x128_1_0_0_1_n_n.rhsIdx i c 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- The second layer's payload at `(p, q)`: the row of `x` scaled by the row's norm, against the column of `w`. -/
theorem pay1_apply (x : Vec Ideal S1024x256 .f32) (n : Vec Ideal S1024x1 .f32) (w : Vec Ideal S256x128 .f32)
    (p : Fin 1024) (q : Fin 128) :
    Gen.k1_pay1 (F := Ideal) x n w (ix2 p q)
      = ∑ k : Fin 256, (x (ix2 p k) * n (ix2 p 0)) * w (ix2 k q) := by
  unfold Gen.k1_pay1
  refine (Ideal.matmul_constant_zero_apply dot_S1024x256_S256x128_S1024x128_1_0_0_1_n_n none _ _ _).trans ?_
  rw [← Equiv.sum_comp (contrEquiv1 dot_S1024x256_S256x128_S1024x128_1_0_0_1_n_n 256 rfl rfl).symm]
  refine Finset.sum_congr rfl fun k _ => ?_
  obtain ⟨el, er⟩ := dot_idx dot_S1024x256_S256x128_S1024x128_1_0_0_1_n_n rfl rfl dot1_lhs0
    (fun i c => dot_S1024x256_S256x128_S1024x128_1_0_0_1_n_n.lhsIdx_val_of_single rfl i c)
    (fun i c => dot_S1024x256_S256x128_S1024x128_1_0_0_1_n_n.rhsIdx_val_of_single rfl i c) dot1_rhs1 p q k
  rw [el, er]
  show shapeCast S1024x256 x shapeCasts_S1024x256_S1024x256 (ix2 p k)
      * broadcastTo S1024x256 (shapeCast S1024x1 n shapeCasts_S1024x1_S1024x1) broadcasts_S1024x1_S1024x256 (ix2 p k)
      * w (ix2 k q) = _
  rw [shapeCast_self, shapeCast_self, broadcastTo_a1_ab_apply]

/-- The reconstruction's dimension numbers read the left operand's row and the right operand's column. -/
theorem dot2_lhs0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem dot2_rhs1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The reconstruction's payload at `(p, q)`: the logistic function of the inner product of row `p` of `a` and
    row `q` of `b`. -/
theorem pay2_apply (a b : Vec Ideal S1024x128 .bf16) (p q : Fin 1024) :
    Gen.k2_pay1 (F := Ideal) a b (ix2 p q) = Ideal.logistic (∑ k : Fin 128, a (ix2 p k) * b (ix2 q k)) := by
  unfold Gen.k2_pay1
  show Ideal.logistic (FloatOps.matmul (F := Ideal) dot_S1024x128_S128x1024_S1024x1024_1_0_0_1_n_n none
      (shapeCast S1024x128 a shapeCasts_S1024x128_S1024x128)
      (transpose S128x1024 [1, 0] (shapeCast S1024x128 b shapeCasts_S1024x128_S1024x128) transposes_S1024x128_p1_0_S128x1024)
      (constant S1024x1024 .f32 0x00000000#32) (ix2 p q)) = _
  refine congrArg Ideal.logistic ?_
  refine (Ideal.matmul_constant_zero_apply dot_S1024x128_S128x1024_S1024x1024_1_0_0_1_n_n none _ _ _).trans ?_
  rw [← Equiv.sum_comp (contrEquiv1 dot_S1024x128_S128x1024_S1024x1024_1_0_0_1_n_n 128 rfl rfl).symm]
  refine Finset.sum_congr rfl fun k _ => ?_
  obtain ⟨el, er⟩ := dot_idx dot_S1024x128_S128x1024_S1024x1024_1_0_0_1_n_n rfl rfl dot2_lhs0
    (fun i c => dot_S1024x128_S128x1024_S1024x1024_1_0_0_1_n_n.lhsIdx_val_of_single rfl i c)
    (fun i c => dot_S1024x128_S128x1024_S1024x1024_1_0_0_1_n_n.rhsIdx_val_of_single rfl i c) dot2_rhs1 p q k
  rw [el, er, shapeCast_self, shapeCast_self, transpose_ix2_apply]

/-! ## The payloads as whole arrays -/

/-- The first layer's payload as an array. -/
theorem pay0_eq (x : Vec Ideal S1024x512 .f32) (n : Vec Ideal S1024x1 .f32) (w : Vec Ideal S512x256 .f32) :
    Gen.k0_pay1 (F := Ideal) x n w
      = fun i => ∑ k : Fin 512, (x (ix2 (i 0) k) * n (ix2 (i 0) 0)) * w (ix2 k (i 1)) := by
  funext i
  obtain ⟨p, q, rfl⟩ : ∃ (p : Fin 1024) (q : Fin 256), i = ix2 p q := ⟨i 0, i 1, eq_ix2 i⟩
  exact pay0_apply x n w p q

/-- The second layer's payload as an array. -/
theorem pay1_eq (x : Vec Ideal S1024x256 .f32) (n : Vec Ideal S1024x1 .f32) (w : Vec Ideal S256x128 .f32) :
    Gen.k1_pay1 (F := Ideal) x n w
      = fun i => ∑ k : Fin 256, (x (ix2 (i 0) k) * n (ix2 (i 0) 0)) * w (ix2 k (i 1)) := by
  funext i
  obtain ⟨p, q, rfl⟩ : ∃ (p : Fin 1024) (q : Fin 128), i = ix2 p q := ⟨i 0, i 1, eq_ix2 i⟩
  exact pay1_apply x n w p q

/-- The reconstruction's payload as an array. -/
theorem pay2_eq (a b : Vec Ideal S1024x128 .bf16) :
    Gen.k2_pay1 (F := Ideal) a b
      = fun i => Ideal.logistic (∑ k : Fin 128, a (ix2 (i 0) k) * b (ix2 (i 1) k)) := by
  funext i
  obtain ⟨p, q, rfl⟩ : ∃ (p q : Fin 1024), i = ix2 p q := ⟨i 0, i 1, eq_ix2 i⟩
  exact pay2_apply a b p q

end Cert.KernelIdeal.Pay

end
-- ==== Proof.Region0Value.lean ====
/-
  From blocks to the array, for the first matmul kernel over the extended reals. Each of the 8 grid points writes one
  block of 1024 rows of the output; that block is the same rows of ONE whole-array function of the call's three input
  arrays, `mm0`: entry `(r, q)` is `∑ k, (x r k · n r) · w k q`. The blocks cover the output array, so after the last
  point the output array is `mm0` of the arrays the call was entered with.
-/
import proofs.«105422_j10024453669136_1_alg».proof.Proof.Region0Data
import proofs.«105422_j10024453669136_1_alg».proof.Proof.KernelPayloads
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Offsets `(0, 0)` are the zero offsets. -/
theorem zero_offsets : (![0, 0] : Fin 2 → Nat) = fun _ => 0 := funext fun a => by fin_cases a <;> rfl

/-- The first layer on whole arrays: entry `(r, q)` is row `r` of `x`, scaled by that row's entry of `n`, against
    column `q` of `w`. -/
def mm0 (x : FVec Ideal S8192x512 .f32) (n : FVec Ideal S8192x1 .f32) (w : FVec Ideal S512x256 .f32) : FVec Ideal S8192x256 .f32 :=
  fun i => ∑ k : Fin 512, (x (ix2 (i 0) k) * n (ix2 (i 0) 0)) * w (ix2 k (i 1))

theorem mm0_apply (x : FVec Ideal S8192x512 .f32) (n : FVec Ideal S8192x1 .f32) (w : FVec Ideal S512x256 .f32) (r : Fin 8192) (q : Fin 256) :
    mm0 x n w (ix2 r q) = ∑ k : Fin 512, (x (ix2 r k) * n (ix2 r 0)) * w (ix2 k q) := rfl

/-- The windows' block indices at every grid point: the two row-blocked inputs and the output sit at row block `t`,
    column block 0; the weight window is the whole array. -/
theorem index_maps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of `x` is rows `1024 t … 1024 t + 1023` of the array. -/
theorem iblk0_0_apply (c : Dev nD) (t : Fin cfg0.N) (y : S1024x512.Idx) (i : S8192x512.Idx)
    (h0 : (i 0).val = 1024 * t.val + (y 0).val) (h1 : (i 1).val = (y 1).val) :
    (iblk0 V c 0 t : Vec Ideal S1024x512 .f32) y = (V c main_arg0 : S8192x512.Idx → Elt Ideal .f32) i := by
  obtain ⟨e0, e1, -⟩ := index_maps0 t
  unfold iblk0
  rw [View.read_apply]
  show V c main_arg0 _ = V c main_arg0 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 512 + 1 * (y 1).val = (i 1).val; rw [e1, h1]; omega

/-- Block `t` of the row scales is rows `1024 t … 1024 t + 1023` of the column. -/
theorem iblk0_1_apply (c : Dev nD) (t : Fin cfg0.N) (y : S1024x1.Idx) (i : S8192x1.Idx)
    (h0 : (i 0).val = 1024 * t.val + (y 0).val) (h1 : (i 1).val = (y 1).val) :
    (iblk0 V c 1 t : Vec Ideal S1024x1 .f32) y = (V c main_v15 : S8192x1.Idx → Elt Ideal .f32) i := by
  obtain ⟨-, -, e0, e1, -⟩ := index_maps0 t
  unfold iblk0
  rw [View.read_apply]
  show V c main_v15 _ = V c main_v15 _
  congr 1
  funext a
  apply Fin.ext
  match a with
  | ⟨0, _⟩ => show win0_1.index t (0 : Fin 2) * 1024 + 1 * (y 0).val = (i 0).val; rw [e0, h0]; omega
  | ⟨1, _⟩ => show win0_1.index t (1 : Fin 2) * 1 + 1 * (y 1).val = (i 1).val; rw [e1, h1]; omega

/-- The weight window's block is the whole weight array at every point. -/
theorem iblk0_2_apply (c : Dev nD) (t : Fin cfg0.N) (y : S512x256.Idx) (i : S512x256.Idx)
    (h0 : (i 0).val = (y 0).val) (h1 : (i 1).val = (y 1).val) :
    (iblk0 V c 2 t : Vec Ideal S512x256 .f32) y = (V c main_arg3 : S512x256.Idx → Elt Ideal .f32) i := by
  obtain ⟨-, -, -, -, e0, e1, -⟩ := index_maps0 t
  unfold iblk0
  rw [View.read_apply]
  show V c main_arg3 _ = V c main_arg3 _
  congr 1
  funext a
  apply Fin.ext
  match a with
  | ⟨0, _⟩ => show win0_2.index t (0 : Fin 2) * 512 + 1 * (y 0).val = (i 0).val; rw [e0, h0]; omega
  | ⟨1, _⟩ => show win0_2.index t (1 : Fin 2) * 256 + 1 * (y 1).val = (i 1).val; rw [e1, h1]; omega

/-- One entry of a block's product. If `x0` and `x1` are rows `1024 b …` of `A0` and `A1`, and `x2` is `A2`, then the
    block product's entry `y` is the whole product's entry at row `1024 b + y 0`, column `y 1`: the same sum, term by term. -/
theorem block_entry0 (A0 : FVec Ideal S8192x512 .f32) (A1 : FVec Ideal S8192x1 .f32) (A2 : FVec Ideal S512x256 .f32)
    (x0 : Vec Ideal S1024x512 .f32) (x1 : Vec Ideal S1024x1 .f32) (x2 : Vec Ideal S512x256 .f32) (b : ℕ)
    (h0 : ∀ (y : S1024x512.Idx) (i : S8192x512.Idx), (i 0).val = 1024 * b + (y 0).val → (i 1).val = (y 1).val → x0 y = A0 i)
    (h1 : ∀ (y : S1024x1.Idx) (i : S8192x1.Idx), (i 0).val = 1024 * b + (y 0).val → (i 1).val = (y 1).val → x1 y = A1 i)
    (h2 : ∀ (y : S512x256.Idx) (i : S512x256.Idx), (i 0).val = (y 0).val → (i 1).val = (y 1).val → x2 y = A2 i)
    (y : S1024x256.Idx) (i : S8192x256.Idx) (hi0 : (i 0).val = 1024 * b + (y 0).val) (hi1 : (i 1).val = (y 1).val) :
    (∑ k : Fin 512, x0 (ix2 (y 0) k) * x1 (ix2 (y 0) 0) * x2 (ix2 k (y 1))) = mm0 A0 A1 A2 i := by
  unfold mm0
  refine Finset.sum_congr rfl fun k _ => ?_
  rw [h0 (ix2 (y 0) k) (ix2 (i 0) k) hi0 rfl, h1 (ix2 (y 0) 0) (ix2 (i 0) 0) hi0 rfl, h2 (ix2 k (y 1)) (ix2 k (i 1)) rfl hi1]

/-- What grid point `t` writes back is block `t` of the whole product of the arrays as the call finds them. -/
theorem flushed0_eq (c : Dev nD) (t : Fin cfg0.N) :
    (dat0 V c).flushed 3 t = ((cfg0.win 3).blk t).view.read (Elt Ideal) (mm0 (V c main_arg0) (V c main_v15) (V c main_arg3)) := by
  show (cfg0.win 3).cut (grid0.coords t) ((dat0 V c).after 3 t) = _
  rw [after0_3]
  unfold out0_3
  rw [View.canon_unit_zero zero_offsets]
  simp only [View.ld_unit_zero (S := S1024x512) zero_offsets, View.ld_unit_zero (S := S1024x1) zero_offsets, View.ld_unit_zero (S := S512x256) zero_offsets]
  rw [Pay.pay0_eq]
  obtain ⟨-, -, -, -, -, -, e0, e1⟩ := index_maps0 t
  funext j
  refine block_entry0 (V c main_arg0) (V c main_v15) (V c main_arg3) (iblk0 V c 0 t) (iblk0 V c 1 t) (iblk0 V c 2 t) t.val
    (iblk0_0_apply V c t) (iblk0_1_apply V c t) (iblk0_2_apply V c t)
    ((cfg0.win 3).xinj (grid0.coords t) j) (((cfg0.win 3).blk t).view.emb j) ?_ ?_
  · show win0_3.index t (0 : Fin 2) * 1024 + 1 * (j 0).val = 1024 * t.val + (j 0).val; rw [e0]; omega
  · show win0_3.index t (1 : Fin 2) * 256 + 1 * (j 1).val = (j 1).val; rw [e1]; omega

/-- An index lies in point `t`'s output block iff each coordinate lies in the block's range on its axis. -/
theorem mem_blk0 (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v16).slice (win0_3.rect t)).set ↔ _
  rw [View.set_slice_whole, Rect.mem_set_unit]
  exact Iff.rfl

/-- Every index of the output array lies in some point's block: row `r` is in row block `r / 1024`. -/
theorem cover0 (i : S8192x256.Idx) : ∃ t : Fin cfg0.N, (cfg0.win 3).flush t = true ∧ i ∈ ((cfg0.win 3).blk t).view.set := by
  have hr : (i 0).val < 8192 := idx2_lt0 i
  have hq : (i 1).val < 256 := idx2_lt1 i
  have hN : cfg0.N = 8 := N_0
  have hlt : (i 0).val / 1024 < cfg0.N := by rw [hN]; omega
  obtain ⟨-, -, -, -, -, -, e0, e1⟩ := index_maps0 ⟨(i 0).val / 1024, hlt⟩
  refine ⟨⟨(i 0).val / 1024, hlt⟩, flush0_3 _, ?_⟩
  rw [mem_blk0]
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, hlt⟩ (1 : Fin 2) * 256 ≤ (i 1).val ∧ (i 1).val < win0_3.index ⟨(i 0).val / 1024, hlt⟩ (1 : Fin 2) * 256 + 256
    rw [e1]; omega

/-- After the last grid point the output array is the whole product of the arrays the call was entered with. -/
theorem final0 (c : Dev nD) : (dat0 (F := Ideal) V c).arrAt 3 cfg0.N = mm0 (V c main_arg0) (V c main_v15) (V c main_arg3) :=
  (dat0 V c).arrAt_eq_of_cover 3 (mm0 (V c main_arg0) (V c main_v15) (V c main_arg3)) (fun t _ => flushed0_eq V c t) cover0

end Cert.KernelIdeal.Fr

end
-- ==== Proof.Region1Value.lean ====
/-
  From blocks to the array, for the second matmul kernel over the extended reals. Each of the 8 grid points writes one
  block of 1024 rows of the output; that block is the same rows of ONE whole-array function of the call's three input
  arrays, `mm1`: entry `(r, q)` is `∑ k, (x r k · n r) · w k q`. The blocks cover the output array, so after the last
  point the output array is `mm1` of the arrays the call was entered with.
-/
import proofs.«105422_j10024453669136_1_alg».proof.Proof.Region1Data
import proofs.«105422_j10024453669136_1_alg».proof.Proof.KernelPayloads
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Offsets `(0, 0)` are the zero offsets. -/
theorem zero_offsets1 : (![0, 0] : Fin 2 → Nat) = fun _ => 0 := funext fun a => by fin_cases a <;> rfl

/-- The second layer on whole arrays: entry `(r, q)` is row `r` of `x`, scaled by that row's entry of `n`, against
    column `q` of `w`. -/
def mm1 (x : FVec Ideal S8192x256 .f32) (n : FVec Ideal S8192x1 .f32) (w : FVec Ideal S256x128 .f32) : FVec Ideal S8192x128 .f32 :=
  fun i => ∑ k : Fin 256, (x (ix2 (i 0) k) * n (ix2 (i 0) 0)) * w (ix2 k (i 1))

theorem mm1_apply (x : FVec Ideal S8192x256 .f32) (n : FVec Ideal S8192x1 .f32) (w : FVec Ideal S256x128 .f32) (r : Fin 8192) (q : Fin 128) :
    mm1 x n w (ix2 r q) = ∑ k : Fin 256, (x (ix2 r k) * n (ix2 r 0)) * w (ix2 k q) := rfl

/-- The windows' block indices at every grid point: the two row-blocked inputs and the output sit at row block `t`,
    column block 0; the weight window is the whole array. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of `x` is rows `1024 t … 1024 t + 1023` of the array. -/
theorem iblk1_0_apply (c : Dev nD) (t : Fin cfg1.N) (y : S1024x256.Idx) (i : S8192x256.Idx)
    (h0 : (i 0).val = 1024 * t.val + (y 0).val) (h1 : (i 1).val = (y 1).val) :
    (iblk1 V c 0 t : Vec Ideal S1024x256 .f32) y = (V c main_v33 : S8192x256.Idx → Elt Ideal .f32) i := by
  obtain ⟨e0, e1, -⟩ := index_maps1 t
  unfold iblk1
  rw [View.read_apply]
  show V c main_v33 _ = V c main_v33 _
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 256 + 1 * (y 1).val = (i 1).val; rw [e1, h1]; omega

/-- Block `t` of the row scales is rows `1024 t … 1024 t + 1023` of the column. -/
theorem iblk1_1_apply (c : Dev nD) (t : Fin cfg1.N) (y : S1024x1.Idx) (i : S8192x1.Idx)
    (h0 : (i 0).val = 1024 * t.val + (y 0).val) (h1 : (i 1).val = (y 1).val) :
    (iblk1 V c 1 t : Vec Ideal S1024x1 .f32) y = (V c main_v49 : S8192x1.Idx → Elt Ideal .f32) i := by
  obtain ⟨-, -, e0, e1, -⟩ := index_maps1 t
  unfold iblk1
  rw [View.read_apply]
  show V c main_v49 _ = V c main_v49 _
  congr 1
  funext a
  apply Fin.ext
  match a with
  | ⟨0, _⟩ => show win1_1.index t (0 : Fin 2) * 1024 + 1 * (y 0).val = (i 0).val; rw [e0, h0]; omega
  | ⟨1, _⟩ => show win1_1.index t (1 : Fin 2) * 1 + 1 * (y 1).val = (i 1).val; rw [e1, h1]; omega

/-- The weight window's block is the whole weight array at every point. -/
theorem iblk1_2_apply (c : Dev nD) (t : Fin cfg1.N) (y : S256x128.Idx) (i : S256x128.Idx)
    (h0 : (i 0).val = (y 0).val) (h1 : (i 1).val = (y 1).val) :
    (iblk1 V c 2 t : Vec Ideal S256x128 .f32) y = (V c main_arg5 : S256x128.Idx → Elt Ideal .f32) i := by
  obtain ⟨-, -, -, -, e0, e1, -⟩ := index_maps1 t
  unfold iblk1
  rw [View.read_apply]
  show V c main_arg5 _ = V c main_arg5 _
  congr 1
  funext a
  apply Fin.ext
  match a with
  | ⟨0, _⟩ => show win1_2.index t (0 : Fin 2) * 256 + 1 * (y 0).val = (i 0).val; rw [e0, h0]; omega
  | ⟨1, _⟩ => show win1_2.index t (1 : Fin 2) * 128 + 1 * (y 1).val = (i 1).val; rw [e1, h1]; omega

/-- One entry of a block's product. If `x0` and `x1` are rows `1024 b …` of `A0` and `A1`, and `x2` is `A2`, then the
    block product's entry `y` is the whole product's entry at row `1024 b + y 0`, column `y 1`: the same sum, term by term. -/
theorem block_entry1 (A0 : FVec Ideal S8192x256 .f32) (A1 : FVec Ideal S8192x1 .f32) (A2 : FVec Ideal S256x128 .f32)
    (x0 : Vec Ideal S1024x256 .f32) (x1 : Vec Ideal S1024x1 .f32) (x2 : Vec Ideal S256x128 .f32) (b : ℕ)
    (h0 : ∀ (y : S1024x256.Idx) (i : S8192x256.Idx), (i 0).val = 1024 * b + (y 0).val → (i 1).val = (y 1).val → x0 y = A0 i)
    (h1 : ∀ (y : S1024x1.Idx) (i : S8192x1.Idx), (i 0).val = 1024 * b + (y 0).val → (i 1).val = (y 1).val → x1 y = A1 i)
    (h2 : ∀ (y : S256x128.Idx) (i : S256x128.Idx), (i 0).val = (y 0).val → (i 1).val = (y 1).val → x2 y = A2 i)
    (y : S1024x128.Idx) (i : S8192x128.Idx) (hi0 : (i 0).val = 1024 * b + (y 0).val) (hi1 : (i 1).val = (y 1).val) :
    (∑ k : Fin 256, x0 (ix2 (y 0) k) * x1 (ix2 (y 0) 0) * x2 (ix2 k (y 1))) = mm1 A0 A1 A2 i := by
  unfold mm1
  refine Finset.sum_congr rfl fun k _ => ?_
  rw [h0 (ix2 (y 0) k) (ix2 (i 0) k) hi0 rfl, h1 (ix2 (y 0) 0) (ix2 (i 0) 0) hi0 rfl, h2 (ix2 k (y 1)) (ix2 k (i 1)) rfl hi1]

/-- What grid point `t` writes back is block `t` of the whole product of the arrays as the call finds them. -/
theorem flushed1_eq (c : Dev nD) (t : Fin cfg1.N) :
    (dat1 V c).flushed 3 t = ((cfg1.win 3).blk t).view.read (Elt Ideal) (mm1 (V c main_v33) (V c main_v49) (V c main_arg5)) := by
  show (cfg1.win 3).cut (grid1.coords t) ((dat1 V c).after 3 t) = _
  rw [after1_3]
  unfold out1_3
  rw [View.canon_unit_zero zero_offsets1]
  simp only [View.ld_unit_zero (S := S1024x256) zero_offsets1, View.ld_unit_zero (S := S1024x1) zero_offsets1, View.ld_unit_zero (S := S256x128) zero_offsets1]
  rw [Pay.pay1_eq]
  obtain ⟨-, -, -, -, -, -, e0, e1⟩ := index_maps1 t
  funext j
  refine block_entry1 (V c main_v33) (V c main_v49) (V c main_arg5) (iblk1 V c 0 t) (iblk1 V c 1 t) (iblk1 V c 2 t) t.val
    (iblk1_0_apply V c t) (iblk1_1_apply V c t) (iblk1_2_apply V c t)
    ((cfg1.win 3).xinj (grid1.coords t) j) (((cfg1.win 3).blk t).view.emb j) ?_ ?_
  · show win1_3.index t (0 : Fin 2) * 1024 + 1 * (j 0).val = 1024 * t.val + (j 0).val; rw [e0]; omega
  · show win1_3.index t (1 : Fin 2) * 128 + 1 * (j 1).val = (j 1).val; rw [e1]; omega

/-- An index lies in point `t`'s output block iff each coordinate lies in the block's range on its axis. -/
theorem mem_blk1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v50).slice (win1_3.rect t)).set ↔ _
  rw [View.set_slice_whole, Rect.mem_set_unit]
  exact Iff.rfl

/-- Every index of the output array lies in some point's block: row `r` is in row block `r / 1024`. -/
theorem cover1 (i : S8192x128.Idx) : ∃ t : Fin cfg1.N, (cfg1.win 3).flush t = true ∧ i ∈ ((cfg1.win 3).blk t).view.set := by
  have hr : (i 0).val < 8192 := idx2_lt0 i
  have hq : (i 1).val < 128 := idx2_lt1 i
  have hN : cfg1.N = 8 := N_1
  have hlt : (i 0).val / 1024 < cfg1.N := by rw [hN]; omega
  obtain ⟨-, -, -, -, -, -, e0, e1⟩ := index_maps1 ⟨(i 0).val / 1024, hlt⟩
  refine ⟨⟨(i 0).val / 1024, hlt⟩, flush1_3 _, ?_⟩
  rw [mem_blk1]
  intro a
  match a with
  | ⟨0, _⟩ =>
    show win1_3.index ⟨(i 0).val / 1024, hlt⟩ (0 : Fin 2) * 1024 ≤ (i 0).val ∧ (i 0).val < win1_3.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win1_3.index ⟨(i 0).val / 1024, hlt⟩ (1 : Fin 2) * 128 ≤ (i 1).val ∧ (i 1).val < win1_3.index ⟨(i 0).val / 1024, hlt⟩ (1 : Fin 2) * 128 + 128
    rw [e1]; omega

/-- After the last grid point the output array is the whole product of the arrays the call was entered with. -/
theorem final1 (c : Dev nD) : (dat1 (F := Ideal) V c).arrAt 3 cfg1.N = mm1 (V c main_v33) (V c main_v49) (V c main_arg5) :=
  (dat1 V c).arrAt_eq_of_cover 3 (mm1 (V c main_v33) (V c main_v49) (V c main_arg5)) (fun t _ => flushed1_eq V c t) cover1

end Cert.KernelIdeal.Fr

end
-- ==== Proof.Region2Value.lean ====
/-
  From blocks to the array, for the reconstruction kernel over the extended reals. Each of the 64 points of the 8 × 8
  grid writes one 1024 × 1024 block of the output; that block is the same entries of ONE whole-array function of the
  call's input array, `recon`: entry `(r, q)` is the logistic function of `∑ k, e r k · e q k`. The blocks cover the
  output array, so after the last point the output array is `recon` of the array the call was entered with.
-/
import proofs.«105422_j10024453669136_1_alg».proof.Proof.Region2Data
import proofs.«105422_j10024453669136_1_alg».proof.Proof.KernelPayloads
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Offsets `(0, 0)` are the zero offsets. -/
theorem zero_offsets2 : (![0, 0] : Fin 2 → Nat) = fun _ => 0 := funext fun a => by fin_cases a <;> rfl

/-- The reconstruction on the whole array: entry `(r, q)` is the logistic function of the inner product of rows `r`
    and `q` of `e`. -/
def recon (e : FVec Ideal S8192x128 .bf16) : FVec Ideal S8192x8192 .f32 :=
  fun i => Ideal.logistic (∑ k : Fin 128, e (ix2 (i 0) k) * e (ix2 (i 1) k))

theorem recon_apply (e : FVec Ideal S8192x128 .bf16) (r q : Fin 8192) :
    recon e (ix2 r q) = Ideal.logistic (∑ k : Fin 128, e (ix2 r k) * e (ix2 q k)) := rfl

/-- The windows' block indices at every point of the 8 × 8 grid, whose point `t` has coordinates `(t / 8, t % 8)`: the
    first input sits at row block `t / 8`, the second at row block `t % 8`, the output at block `(t / 8, t % 8)`. -/
theorem index_maps2 : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- The first input's block at point `t` is rows `1024 (t / 8) … 1024 (t / 8) + 1023` of the array. -/
theorem iblk2_0_apply (c : Dev nD) (t : Fin cfg2.N) (y : S1024x128.Idx) (i : S8192x128.Idx)
    (h0 : (i 0).val = 1024 * (t.val / 8) + (y 0).val) (h1 : (i 1).val = (y 1).val) :
    (iblk2 V c 0 t : Vec Ideal S1024x128 .bf16) y = (V c main_v67 : S8192x128.Idx → Elt Ideal .bf16) i := by
  obtain ⟨e0, e1, -⟩ := index_maps2 t
  unfold iblk2
  rw [View.read_apply]
  show V c main_v67 _ = V c main_v67 _
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 128 + 1 * (y 1).val = (i 1).val; rw [e1, h1]; omega

/-- The second input's block at point `t` is rows `1024 (t % 8) … 1024 (t % 8) + 1023` of the same array. -/
theorem iblk2_1_apply (c : Dev nD) (t : Fin cfg2.N) (y : S1024x128.Idx) (i : S8192x128.Idx)
    (h0 : (i 0).val = 1024 * (t.val % 8) + (y 0).val) (h1 : (i 1).val = (y 1).val) :
    (iblk2 V c 1 t : Vec Ideal S1024x128 .bf16) y = (V c main_v67 : S8192x128.Idx → Elt Ideal .bf16) i := by
  obtain ⟨-, -, e0, e1, -⟩ := index_maps2 t
  unfold iblk2
  rw [View.read_apply]
  show V c main_v67 _ = V c main_v67 _
  congr 1
  funext a
  apply Fin.ext
  match a with
  | ⟨0, _⟩ => show win2_1.index t (0 : Fin 2) * 1024 + 1 * (y 0).val = (i 0).val; rw [e0, h0]; omega
  | ⟨1, _⟩ => show win2_1.index t (1 : Fin 2) * 128 + 1 * (y 1).val = (i 1).val; rw [e1, h1]; omega

/-- One entry of a block of the reconstruction. If `x0` is rows `1024 b0 …` of `E` and `x1` is rows `1024 b1 …` of `E`,
    then entry `y` of the block is the whole array's entry at row `1024 b0 + y 0`, column `1024 b1 + y 1`: the same
    inner product, term by term, under the same function. -/
theorem block_entry2 (E : FVec Ideal S8192x128 .bf16) (x0 x1 : Vec Ideal S1024x128 .bf16) (b0 b1 : ℕ)
    (h0 : ∀ (y : S1024x128.Idx) (i : S8192x128.Idx), (i 0).val = 1024 * b0 + (y 0).val → (i 1).val = (y 1).val → x0 y = E i)
    (h1 : ∀ (y : S1024x128.Idx) (i : S8192x128.Idx), (i 0).val = 1024 * b1 + (y 0).val → (i 1).val = (y 1).val → x1 y = E i)
    (y : S1024x1024.Idx) (i : S8192x8192.Idx) (hi0 : (i 0).val = 1024 * b0 + (y 0).val) (hi1 : (i 1).val = 1024 * b1 + (y 1).val) :
    Ideal.logistic (∑ k : Fin 128, x0 (ix2 (y 0) k) * x1 (ix2 (y 1) k)) = recon E i := by
  unfold recon
  refine congrArg Ideal.logistic (Finset.sum_congr rfl fun k _ => ?_)
  rw [h0 (ix2 (y 0) k) (ix2 (i 0) k) hi0 rfl, h1 (ix2 (y 1) k) (ix2 (i 1) k) hi1 rfl]

/-- What grid point `t` writes back is block `(t / 8, t % 8)` of the reconstruction of the array as the call finds it. -/
theorem flushed2_eq (c : Dev nD) (t : Fin cfg2.N) :
    (dat2 V c).flushed 2 t = ((cfg2.win 2).blk t).view.read (Elt Ideal) (recon (V c main_v67)) := by
  show (cfg2.win 2).cut (grid2.coords t) ((dat2 V c).after 2 t) = _
  rw [after2_2]
  unfold out2_2
  rw [View.canon_unit_zero zero_offsets2]
  simp only [View.ld_unit_zero (S := S1024x128) zero_offsets2]
  rw [Pay.pay2_eq]
  obtain ⟨-, -, -, -, e0, e1⟩ := index_maps2 t
  funext j
  refine block_entry2 (V c main_v67) (iblk2 V c 0 t) (iblk2 V c 1 t) (t.val / 8) (t.val % 8)
    (iblk2_0_apply V c t) (iblk2_1_apply V c t)
    ((cfg2.win 2).xinj (grid2.coords t) j) (((cfg2.win 2).blk t).view.emb j) ?_ ?_
  · show win2_2.index t (0 : Fin 2) * 1024 + 1 * (j 0).val = 1024 * (t.val / 8) + (j 0).val; rw [e0]; omega
  · show win2_2.index t (1 : Fin 2) * 1024 + 1 * (j 1).val = 1024 * (t.val % 8) + (j 1).val; rw [e1]; omega

/-- An index lies in point `t`'s output block iff each coordinate lies in the block's range on its axis. -/
theorem mem_blk2 (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v68).slice (win2_2.rect t)).set ↔ _
  rw [View.set_slice_whole, Rect.mem_set_unit]
  exact Iff.rfl

/-- Every index of the output array lies in some point's block: entry `(r, q)` is in block `(r / 1024, q / 1024)`,
    which is the block of point `8 (r / 1024) + q / 1024`. -/
theorem cover2 (i : S8192x8192.Idx) : ∃ t : Fin cfg2.N, (cfg2.win 2).flush t = true ∧ i ∈ ((cfg2.win 2).blk t).view.set := by
  have hr : (i 0).val < 8192 := idx2_lt0 i
  have hq : (i 1).val < 8192 := idx2_lt1 i
  have hN : cfg2.N = 64 := N_2
  have hlt : 8 * ((i 0).val / 1024) + (i 1).val / 1024 < cfg2.N := by rw [hN]; omega
  obtain ⟨-, -, -, -, e0, e1⟩ := index_maps2 ⟨8 * ((i 0).val / 1024) + (i 1).val / 1024, hlt⟩
  refine ⟨⟨8 * ((i 0).val / 1024) + (i 1).val / 1024, hlt⟩, flush2_2 _, ?_⟩
  rw [mem_blk2]
  intro a
  match a with
  | ⟨0, _⟩ =>
    show win2_2.index ⟨8 * ((i 0).val / 1024) + (i 1).val / 1024, hlt⟩ (0 : Fin 2) * 1024 ≤ (i 0).val
      ∧ (i 0).val < win2_2.index ⟨8 * ((i 0).val / 1024) + (i 1).val / 1024, hlt⟩ (0 : Fin 2) * 1024 + 1024
    rw [e0]
    show (8 * ((i 0).val / 1024) + (i 1).val / 1024) / 8 * 1024 ≤ (i 0).val ∧ (i 0).val < (8 * ((i 0).val / 1024) + (i 1).val / 1024) / 8 * 1024 + 1024
    omega
  | ⟨1, _⟩ =>
    show win2_2.index ⟨8 * ((i 0).val / 1024) + (i 1).val / 1024, hlt⟩ (1 : Fin 2) * 1024 ≤ (i 1).val
      ∧ (i 1).val < win2_2.index ⟨8 * ((i 0).val / 1024) + (i 1).val / 1024, hlt⟩ (1 : Fin 2) * 1024 + 1024
    rw [e1]
    show (8 * ((i 0).val / 1024) + (i 1).val / 1024) % 8 * 1024 ≤ (i 1).val ∧ (i 1).val < (8 * ((i 0).val / 1024) + (i 1).val / 1024) % 8 * 1024 + 1024
    omega

/-- After the last grid point the output array is the reconstruction of the array the call was entered with. -/
theorem final2 (c : Dev nD) : (dat2 (F := Ideal) V c).arrAt 2 cfg2.N = recon (V c main_v67) :=
  (dat2 V c).arrAt_eq_of_cover 2 (recon (V c main_v67)) (fun t _ => flushed2_eq V c t) cover2

end Cert.KernelIdeal.Fr

end
-- ==== Proof.RefStages.lean ====
import proofs.«105422_j10024453669136_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx Idealize.ShloMosaic.StableHlo
open Cert.ReferenceIdeal Cert.ReferenceIdeal.Facts₀ Cert.ReferenceIdeal.Facts Cert.ReferenceIdeal.Read
open scoped BigOperators

/-- A plain matrix product's operand indices: for dimension numbers that contract the left operand's axis 1 with the
    right operand's axis 0 and have no batch axis, the left operand is read at `(row, k)` and the right at `(k, column)`. -/
theorem dot_idx {m kk n : ℕ} (D : DotDims ⟨2, ![m, kk]⟩ ⟨2, ![kk, n]⟩ ⟨2, ![m, n]⟩)
    (hr : D.contr.rank = 1) (hs : D.contr.size ⟨0, by omega⟩ = kk)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (p : Fin m) (q : Fin n) (k : Fin kk) :
    D.lhsIdx (ix2 p q) ((contrEquiv1 D kk hr hs).symm k) = ix2 p k
      ∧ D.rhsIdx (ix2 p q) ((contrEquiv1 D kk hr hs).symm k) = ix2 k q := by
  have hk := contrEquiv1_symm_val D kk hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- A vector `[a]` made a column `[a, 1]` and then broadcast along the rows to `[a, b]` reads, at `(r, c)`,
    the vector's entry `r`. -/
theorem bcast_col_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (c : Fin b) :
    broadcastInDim ⟨2, ![a, b]⟩ ![0, 1] h2 (broadcastInDim ⟨2, ![a, 1]⟩ ![0] h1 v) (ix2 r c) = v (ix1 r) := by
  refine (broadcastInDim_apply _ h2 _ (ix2 r c) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-- The first layer of the reference at `(r, q)`: the row of `x` scaled by the row's norm, against the column of `w`. -/
theorem layer1_apply (x : FVec Ideal S8192x512 .f32) (n : FVec Ideal S8192 .f32) (w : FVec Ideal S512x256 .f32)
    (r : Fin 8192) (q : Fin 256) :
    Host.dotGeneral (F := Ideal) dot_S8192x512_S512x256_S8192x256_1_0_0_1_n_n none
        (mulf x (broadcastInDim S8192x512 ![0, 1] bcast_S8192x1_S8192x512_0_1
          (broadcastInDim S8192x1 ![0] bcast_S8192_S8192x1_0 n))) w (ix2 r q)
      = ∑ k : Fin 512, (x (ix2 r k) * n (ix1 r)) * w (ix2 k q) := by
  simp only [Host.dotGeneral]
  refine (Ideal.dotGeneral_apply dot_S8192x512_S512x256_S8192x256_1_0_0_1_n_n none _ _ _ _).trans ?_
  rw [← Equiv.sum_comp (contrEquiv1 dot_S8192x512_S512x256_S8192x256_1_0_0_1_n_n 512 rfl rfl).symm]
  refine Finset.sum_congr rfl fun k _ => ?_
  obtain ⟨el, er⟩ := dot_idx dot_S8192x512_S512x256_S8192x256_1_0_0_1_n_n rfl rfl lhs_main_v18_0 lhs_main_v18_1
    rhs_main_v18_0 rhs_main_v18_1 r q k
  rw [el, er]
  show x (ix2 r k) * broadcastInDim S8192x512 ![0, 1] bcast_S8192x1_S8192x512_0_1
      (broadcastInDim S8192x1 ![0] bcast_S8192_S8192x1_0 n) (ix2 r k) * w (ix2 k q) = _
  rw [bcast_col_apply]

/-- The second layer of the reference at `(r, q)`: the row of `x` scaled by the row's norm, against the column of `w`. -/
theorem layer2_apply (x : FVec Ideal S8192x256 .f32) (n : FVec Ideal S8192 .f32) (w : FVec Ideal S256x128 .f32)
    (r : Fin 8192) (q : Fin 128) :
    Host.dotGeneral (F := Ideal) dot_S8192x256_S256x128_S8192x128_1_0_0_1_n_n none
        (mulf x (broadcastInDim S8192x256 ![0, 1] bcast_S8192x1_S8192x256_0_1
          (broadcastInDim S8192x1 ![0] bcast_S8192_S8192x1_0 n))) w (ix2 r q)
      = ∑ k : Fin 256, (x (ix2 r k) * n (ix1 r)) * w (ix2 k q) := by
  simp only [Host.dotGeneral]
  refine (Ideal.dotGeneral_apply dot_S8192x256_S256x128_S8192x128_1_0_0_1_n_n none _ _ _ _).trans ?_
  rw [← Equiv.sum_comp (contrEquiv1 dot_S8192x256_S256x128_S8192x128_1_0_0_1_n_n 256 rfl rfl).symm]
  refine Finset.sum_congr rfl fun k _ => ?_
  obtain ⟨el, er⟩ := dot_idx dot_S8192x256_S256x128_S8192x128_1_0_0_1_n_n rfl rfl lhs_main_v54_0 lhs_main_v54_1
    rhs_main_v54_0 rhs_main_v54_1 r q k
  rw [el, er]
  show x (ix2 r k) * broadcastInDim S8192x256 ![0, 1] bcast_S8192x1_S8192x256_0_1
      (broadcastInDim S8192x1 ![0] bcast_S8192_S8192x1_0 n) (ix2 r k) * w (ix2 k q) = _
  rw [bcast_col_apply]

/-- The f32 word `0x3F800000` is the number one. -/
theorem ofBits_one_f32 : Ideal.ofBits .f32 0x3F800000#32 = 1 := by
  simp [Ideal.ofBits, Ideal.ieee, -EReal.coe_mul]; norm_num

/-- The scalar one broadcast to the whole square reads one everywhere. -/
theorem one_splat_apply (i : S8192x8192.Idx) :
    broadcastInDim S8192x8192 ![] bcast_S_S8192x8192 (constant (F := Ideal) S_ .f32 0x3F800000#32) i = 1 :=
  (broadcastInDim_apply _ bcast_S_S8192x8192 _ i (fun a => a.elim0) (fun a => a.elim0)).trans ofBits_one_f32

/-- The reconstruction of the reference at `(r, q)`: `1 / (1 + e^(-s))` at the inner product `s` of rows `r` and `q` of
    the embedding is the logistic function of it. -/
theorem recon_apply (e : FVec Ideal S8192x128 .f32) (r q : Fin 8192) :
    Host.divf (F := Ideal) (broadcastInDim S8192x8192 ![] bcast_S_S8192x8192 (constant (F := Ideal) S_ .f32 0x3F800000#32))
        (addf (broadcastInDim S8192x8192 ![] bcast_S_S8192x8192 (constant (F := Ideal) S_ .f32 0x3F800000#32))
          (Host.exp (Host.negf (Host.dotGeneral dot_S8192x128_S128x8192_S8192x8192_1_0_0_1_n_n none e
            (transpose S128x8192 [1, 0] e transposes_S8192x128_S128x8192_1_0))))) (ix2 r q)
      = Ideal.logistic (∑ k : Fin 128, e (ix2 r k) * e (ix2 q k)) := by
  show Ideal.div (broadcastInDim S8192x8192 ![] bcast_S_S8192x8192 (constant (F := Ideal) S_ .f32 0x3F800000#32) (ix2 r q))
      (broadcastInDim S8192x8192 ![] bcast_S_S8192x8192 (constant (F := Ideal) S_ .f32 0x3F800000#32) (ix2 r q)
        + Ideal.exp (-(FloatOps.dotGeneral (F := Ideal) dot_S8192x128_S128x8192_S8192x8192_1_0_0_1_n_n none .single e
            (transpose S128x8192 [1, 0] e transposes_S8192x128_S128x8192_1_0) (ix2 r q)))) = _
  rw [one_splat_apply]
  refine congrArg (fun t => Ideal.div 1 (1 + Ideal.exp (-t))) ?_
  refine (Ideal.dotGeneral_apply dot_S8192x128_S128x8192_S8192x8192_1_0_0_1_n_n none _ _ _ _).trans ?_
  rw [← Equiv.sum_comp (contrEquiv1 dot_S8192x128_S128x8192_S8192x8192_1_0_0_1_n_n 128 rfl rfl).symm]
  refine Finset.sum_congr rfl fun k _ => ?_
  obtain ⟨el, er⟩ := dot_idx dot_S8192x128_S128x8192_S8192x8192_1_0_0_1_n_n rfl rfl lhs_main_v72_0 lhs_main_v72_1
    rhs_main_v72_0 rhs_main_v72_1 r q k
  rw [el, er, transpose_ix2_apply]

/-! ## The stages as whole arrays -/

/-- The first layer of the reference as an array. -/
theorem layer1_eq (x : FVec Ideal S8192x512 .f32) (n : FVec Ideal S8192 .f32) (w : FVec Ideal S512x256 .f32) :
    Host.dotGeneral (F := Ideal) dot_S8192x512_S512x256_S8192x256_1_0_0_1_n_n none
        (mulf x (broadcastInDim S8192x512 ![0, 1] bcast_S8192x1_S8192x512_0_1
          (broadcastInDim S8192x1 ![0] bcast_S8192_S8192x1_0 n))) w
      = fun i => ∑ k : Fin 512, (x (ix2 (i 0) k) * n (ix1 (i 0))) * w (ix2 k (i 1)) := by
  funext i
  obtain ⟨r, q, rfl⟩ : ∃ (r : Fin 8192) (q : Fin 256), i = ix2 r q := ⟨i 0, i 1, eq_ix2 i⟩
  exact layer1_apply x n w r q

/-- The second layer of the reference as an array. -/
theorem layer2_eq (x : FVec Ideal S8192x256 .f32) (n : FVec Ideal S8192 .f32) (w : FVec Ideal S256x128 .f32) :
    Host.dotGeneral (F := Ideal) dot_S8192x256_S256x128_S8192x128_1_0_0_1_n_n none
        (mulf x (broadcastInDim S8192x256 ![0, 1] bcast_S8192x1_S8192x256_0_1
          (broadcastInDim S8192x1 ![0] bcast_S8192_S8192x1_0 n))) w
      = fun i => ∑ k : Fin 256, (x (ix2 (i 0) k) * n (ix1 (i 0))) * w (ix2 k (i 1)) := by
  funext i
  obtain ⟨r, q, rfl⟩ : ∃ (r : Fin 8192) (q : Fin 128), i = ix2 r q := ⟨i 0, i 1, eq_ix2 i⟩
  exact layer2_apply x n w r q

/-- The reconstruction of the reference as an array. -/
theorem recon_eq (e : FVec Ideal S8192x128 .f32) :
    Host.divf (F := Ideal) (broadcastInDim S8192x8192 ![] bcast_S_S8192x8192 (constant (F := Ideal) S_ .f32 0x3F800000#32))
        (addf (broadcastInDim S8192x8192 ![] bcast_S_S8192x8192 (constant (F := Ideal) S_ .f32 0x3F800000#32))
          (Host.exp (Host.negf (Host.dotGeneral dot_S8192x128_S128x8192_S8192x8192_1_0_0_1_n_n none e
            (transpose S128x8192 [1, 0] e transposes_S8192x128_S128x8192_1_0)))))
      = fun i => Ideal.logistic (∑ k : Fin 128, e (ix2 (i 0) k) * e (ix2 (i 1) k)) := by
  funext i
  obtain ⟨r, q, rfl⟩ : ∃ (r q : Fin 8192), i = ix2 r q := ⟨i 0, i 1, eq_ix2 i⟩
  exact recon_apply e r q

end Cert.ReferenceIdeal.Stages

end
-- ==== Proof.Bridge.lean ====
/-
  The value bridge over the extended reals. The kernel program and the reference run the same host operations — the
  degree counts by scatter-add, the maximum with one, the power `-1/2`, the index wrap-around, gather, scatter-add, the
  scaling by the destination's normalisation, the bias, the maximum with zero — around three places where they differ:
  each layer's product, which the kernel program computes by a call from the row scales given as a column and the
  reference by a `dot_general` of the scaled rows (the same sum at every entry), and the reconstruction, which the kernel
  program computes by a call from the embedding in the narrow format (a change of format that is the identity on
  extended reals) and the reference as `1 / (1 + e^(-(e · eᵀ)))` (the logistic function of the same inner products).
  The shared operations are carried as named functions of whole arrays; both programs' results are the same functions
  of the seven arguments.
-/
import proofs.«105422_j10024453669136_1_alg».proof.Proof.RunRecords
import proofs.«105422_j10024453669136_1_alg».proof.Proof.Region0Value
import proofs.«105422_j10024453669136_1_alg».proof.Proof.Region1Value
import proofs.«105422_j10024453669136_1_alg».proof.Proof.Region2Value
import proofs.«105422_j10024453669136_1_alg».proof.Proof.RefStages

set_option maxRecDepth 16384

noncomputable section

namespace Cert.Bridge

open Idealize.ShloMosaic Idealize.ShloMosaic.ValueIdx Idealize.SL.Sem
open scoped BigOperators

/-! ## The operations the two programs share, as functions of whole arrays -/

section Chains
open Cert.ReferenceIdeal Cert.ReferenceIdeal.Facts₀ Cert.ReferenceIdeal.Facts
variable {F : FTy → Type} [FloatOps F]

/-- The degree normalisation of an index list: count each node's occurrences (a scatter-add of ones into zeros), take
    the maximum with one, raise to the power `-1/2`. -/
def norm (a : (⟨S262144, .i32⟩ : BufTy).Contents (Elt F)) : (⟨S8192, .f32⟩ : BufTy).Contents (Elt F) :=
  Host.powf (maximumf (Host.scatterAdd scatter_S8192_S262144x1_S262144_n_0_0_1
      (broadcastInDim S8192 ![] bcast_S_S8192 (constant S_ .f32 0x00000000#32))
      (broadcastInDim S262144x1 ![0] bcast_S262144_S262144x1_0 a)
      (broadcastInDim S262144 ![] bcast_S_S262144 (constant S_ .f32 0x3F800000#32)))
    (broadcastInDim S8192 ![] bcast_S_S8192 (constant S_ .f32 0x3F800000#32)))
    (broadcastInDim S8192 ![] bcast_S_S8192 (constant S_ .f32 0xBF000000#32))

/-- An index list with its negative entries wrapped around: `i + 8192` where `i < 0`, else `i`. -/
def wrap (a : (⟨S262144, .i32⟩ : BufTy).Contents (Elt F)) : (⟨S262144, .i32⟩ : BufTy).Contents (Elt F) :=
  select (cmpi .slt a (broadcastInDim S262144 ![] bcast_S_S262144 (constantI S_ 32 0#32)))
    (addi a (broadcastInDim S262144 ![] bcast_S_S262144 (constantI S_ 32 8192#32))) a

/-- What follows the first layer's product `h`: gather the source rows, scatter-add them to their destinations,
    scale each row by the destination's normalisation, add the bias. -/
def tail256 (h : (⟨S8192x256, .f32⟩ : BufTy).Contents (Elt F)) (src dst : (⟨S262144, .i32⟩ : BufTy).Contents (Elt F))
    (nd : (⟨S8192, .f32⟩ : BufTy).Contents (Elt F)) (b : (⟨S256, .f32⟩ : BufTy).Contents (Elt F)) :
    (⟨S8192x256, .f32⟩ : BufTy).Contents (Elt F) :=
  addf (mulf (Host.scatterAdd scatter_S8192x256_S262144x1_S262144x256_1_0_0_1
      (broadcastInDim S8192x256 ![] bcast_S_S8192x256 (constant S_ .f32 0x00000000#32))
      (broadcastInDim S262144x1 ![0] bcast_S262144_S262144x1_0 dst)
      (Host.gather gather_S8192x256_S262144x1_S262144x256_1_0_n_n_0_1_1256 h
        (broadcastInDim S262144x1 ![0] bcast_S262144_S262144x1_0 (wrap src))))
    (broadcastInDim S8192x256 ![0, 1] bcast_S8192x1_S8192x256_0_1 (broadcastInDim S8192x1 ![0] bcast_S8192_S8192x1_0 nd)))
    (broadcastInDim S8192x256 ![0, 1] bcast_S1x256_S8192x256_0_1 (broadcastInDim S1x256 ![1] bcast_S256_S1x256_1 b))

/-- The maximum with zero. -/
def relu256 (x : (⟨S8192x256, .f32⟩ : BufTy).Contents (Elt F)) : (⟨S8192x256, .f32⟩ : BufTy).Contents (Elt F) :=
  maximumf x (broadcastInDim S8192x256 ![] bcast_S_S8192x256 (constant S_ .f32 0x00000000#32))

/-- What follows the second layer's product `h`: the same steps at width 128. -/
def tail128 (h : (⟨S8192x128, .f32⟩ : BufTy).Contents (Elt F)) (src dst : (⟨S262144, .i32⟩ : BufTy).Contents (Elt F))
    (nd : (⟨S8192, .f32⟩ : BufTy).Contents (Elt F)) (b : (⟨S128, .f32⟩ : BufTy).Contents (Elt F)) :
    (⟨S8192x128, .f32⟩ : BufTy).Contents (Elt F) :=
  addf (mulf (Host.scatterAdd scatter_S8192x128_S262144x1_S262144x128_1_0_0_1
      (broadcastInDim S8192x128 ![] bcast_S_S8192x128 (constant S_ .f32 0x00000000#32))
      (broadcastInDim S262144x1 ![0] bcast_S262144_S262144x1_0 dst)
      (Host.gather gather_S8192x128_S262144x1_S262144x128_1_0_n_n_0_1_1128 h
        (broadcastInDim S262144x1 ![0] bcast_S262144_S262144x1_0 (wrap src))))
    (broadcastInDim S8192x128 ![0, 1] bcast_S8192x1_S8192x128_0_1 (broadcastInDim S8192x1 ![0] bcast_S8192_S8192x1_0 nd)))
    (broadcastInDim S8192x128 ![0, 1] bcast_S1x128_S8192x128_0_1 (broadcastInDim S1x128 ![1] bcast_S128_S1x128_1 b))

/-- The reference's first layer product: the rows of `x` scaled by `n`, times `w`. -/
def lay1 (x : (⟨S8192x512, .f32⟩ : BufTy).Contents (Elt F)) (n : (⟨S8192, .f32⟩ : BufTy).Contents (Elt F))
    (w : (⟨S512x256, .f32⟩ : BufTy).Contents (Elt F)) : (⟨S8192x256, .f32⟩ : BufTy).Contents (Elt F) :=
  Host.dotGeneral dot_S8192x512_S512x256_S8192x256_1_0_0_1_n_n none
    (mulf x (broadcastInDim S8192x512 ![0, 1] bcast_S8192x1_S8192x512_0_1 (broadcastInDim S8192x1 ![0] bcast_S8192_S8192x1_0 n))) w

/-- The reference's second layer product. -/
def lay2 (x : (⟨S8192x256, .f32⟩ : BufTy).Contents (Elt F)) (n : (⟨S8192, .f32⟩ : BufTy).Contents (Elt F))
    (w : (⟨S256x128, .f32⟩ : BufTy).Contents (Elt F)) : (⟨S8192x128, .f32⟩ : BufTy).Contents (Elt F) :=
  Host.dotGeneral dot_S8192x256_S256x128_S8192x128_1_0_0_1_n_n none
    (mulf x (broadcastInDim S8192x256 ![0, 1] bcast_S8192x1_S8192x256_0_1 (broadcastInDim S8192x1 ![0] bcast_S8192_S8192x1_0 n))) w

/-- The reference's reconstruction: `1 / (1 + e^(-(e · eᵀ)))`. -/
def rec (e : (⟨S8192x128, .f32⟩ : BufTy).Contents (Elt F)) : (⟨S8192x8192, .f32⟩ : BufTy).Contents (Elt F) :=
  Host.divf (broadcastInDim S8192x8192 ![] bcast_S_S8192x8192 (constant S_ .f32 0x3F800000#32))
    (addf (broadcastInDim S8192x8192 ![] bcast_S_S8192x8192 (constant S_ .f32 0x3F800000#32))
      (Host.exp (Host.negf (Host.dotGeneral dot_S8192x128_S128x8192_S8192x8192_1_0_0_1_n_n none e
        (transpose S128x8192 [1, 0] e transposes_S8192x128_S128x8192_1_0)))))

/-- The embedding as the reference computes it from its seven arguments. -/
def embOf (a0 : (⟨S8192x512, .f32⟩ : BufTy).Contents (Elt F)) (a1 a2 : (⟨S262144, .i32⟩ : BufTy).Contents (Elt F))
    (a3 : (⟨S512x256, .f32⟩ : BufTy).Contents (Elt F)) (a4 : (⟨S256, .f32⟩ : BufTy).Contents (Elt F))
    (a5 : (⟨S256x128, .f32⟩ : BufTy).Contents (Elt F)) (a6 : (⟨S128, .f32⟩ : BufTy).Contents (Elt F)) :
    (⟨S8192x128, .f32⟩ : BufTy).Contents (Elt F) :=
  tail128 (lay2 (relu256 (tail256 (lay1 a0 (norm a1) a3) a1 a2 (norm a2) a4)) (norm a1) a5) a1 a2 (norm a2) a6

/-- The reference's first result is the embedding of its arguments. -/
theorem ref_emb (m' : (ℓ : Loc nD τ sig) → Buf (Elt F) ℓ) (c : Dev nD) :
    Value.res_main_v70 m' c = embOf (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) (m' ((c.tc : Thread nD τ).loc main_arg6)) := by
  unfold Value.res_main_v70; rfl

/-- The reference's second result is the reconstruction of the embedding. -/
theorem ref_logits (m' : (ℓ : Loc nD τ sig) → Buf (Elt F) ℓ) (c : Dev nD) :
    Value.res_main_v78 m' c = rec (embOf (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) (m' ((c.tc : Thread nD τ).loc main_arg6))) := by
  unfold Value.res_main_v78; rfl

end Chains

/-! ## The kernel program's host stretches, each as the shared functions of the contents before it -/

section Stretches
open Cert.KernelIdeal Cert.KernelIdeal.Facts₀ Cert.KernelIdeal.Facts
variable {F : FTy → Type} [FloatOps F]

/-- The first stretch leaves the source normalisation, as a column, in `main_v15`. -/
theorem ops0_v15 (V : Valuation τ sig (Elt F)) :
    StableHlo.after Gen.hostOps0 V (Proc.devRef .tc main_v15)
      = shapeCast S8192x1 (norm (V (Proc.devRef .tc main_arg1))) shapeCasts_S8192_S8192x1 := by
  dsimp only [Gen.hostOps0]; after_results; rfl

/-- The first stretch leaves the destination normalisation in `main_v14`. -/
theorem ops0_v14 (V : Valuation τ sig (Elt F)) :
    StableHlo.after Gen.hostOps0 V (Proc.devRef .tc main_v14) = norm (V (Proc.devRef .tc main_arg2)) := by
  dsimp only [Gen.hostOps0]; after_results; rfl

set_option maxHeartbeats 4000000 in
/-- The second stretch leaves, in `main_v32`, what follows the first layer's product. -/
theorem ops1_v32 (V : Valuation τ sig (Elt F)) :
    StableHlo.after Gen.hostOps1 V (Proc.devRef .tc main_v32)
      = tail256 (V (Proc.devRef .tc main_v16)) (V (Proc.devRef .tc main_arg1)) (V (Proc.devRef .tc main_arg2))
          (V (Proc.devRef .tc main_v14)) (V (Proc.devRef .tc main_arg4)) := by
  dsimp only [Gen.hostOps1]; after_results_simp; rfl

/-- The third stretch leaves its maximum with zero in `main_v33`. -/
theorem ops1_1_v33 (V : Valuation τ sig (Elt F)) :
    StableHlo.after Gen.hostOps1_1 V (Proc.devRef .tc main_v33) = relu256 (V (Proc.devRef .tc main_v32)) := by
  dsimp only [Gen.hostOps1_1]; after_results; rfl

/-- The fourth stretch leaves the source normalisation, as a column, in `main_v49`. -/
theorem ops1_2_v49 (V : Valuation τ sig (Elt F)) :
    StableHlo.after Gen.hostOps1_2 V (Proc.devRef .tc main_v49)
      = shapeCast S8192x1 (norm (V (Proc.devRef .tc main_arg1))) shapeCasts_S8192_S8192x1 := by
  dsimp only [Gen.hostOps1_2]; after_results; rfl

/-- The fourth stretch leaves the destination normalisation in `main_v48`. -/
theorem ops1_2_v48 (V : Valuation τ sig (Elt F)) :
    StableHlo.after Gen.hostOps1_2 V (Proc.devRef .tc main_v48) = norm (V (Proc.devRef .tc main_arg2)) := by
  dsimp only [Gen.hostOps1_2]; after_results; rfl

/-- The last stretch leaves, in `main_v66`, what follows the second layer's product. -/
theorem ops2_v66 (V : Valuation τ sig (Elt F)) :
    StableHlo.after Gen.hostOps2 V (Proc.devRef .tc main_v66)
      = tail128 (V (Proc.devRef .tc main_v50)) (V (Proc.devRef .tc main_arg1)) (V (Proc.devRef .tc main_arg2))
          (V (Proc.devRef .tc main_v48)) (V (Proc.devRef .tc main_arg6)) := by
  dsimp only [Gen.hostOps2]; after_results_simp; rfl

/-- The last stretch leaves, in `main_v67`, that array in the narrow format. -/
theorem ops2_v67 (V : Valuation τ sig (Elt F)) :
    StableHlo.after Gen.hostOps2 V (Proc.devRef .tc main_v67)
      = truncf .bf16 (tail128 (V (Proc.devRef .tc main_v50)) (V (Proc.devRef .tc main_arg1)) (V (Proc.devRef .tc main_arg2))
          (V (Proc.devRef .tc main_v48)) (V (Proc.devRef .tc main_arg6))) bitsLt_bf16_f32 := by
  dsimp only [Gen.hostOps2]; after_results_simp; rfl

end Stretches

/-! ## The first call -/

section Calls
open Cert.KernelIdeal Cert.KernelIdeal.Facts₀ Cert.KernelIdeal.Facts Idealize.ShloMosaic.TcCoe

/-- A vector `[a]` cast to a column `[a, 1]` reads, at `(r, u)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The first call's whole-array product, with the row scales given as a column, is the reference's first layer
    product: the same sum at every entry. -/
theorem mm0_col (x : FVec Ideal S8192x512 .f32) (n : FVec Ideal S8192 .f32) (w : FVec Ideal S512x256 .f32) :
    Fr.mm0 x (shapeCast S8192x1 n shapeCasts_S8192_S8192x1) w = lay1 (F := Ideal) x n w := by
  unfold lay1
  funext i
  obtain ⟨r, q, rfl⟩ : ∃ (r : Fin 8192) (q : Fin 256), i = ix2 r q := ⟨i 0, i 1, eq_ix2 i⟩
  refine (Fr.mm0_apply x _ w r q).trans ((Finset.sum_congr rfl fun k _ => ?_).trans
    (Cert.ReferenceIdeal.Stages.layer1_apply x n w r q).symm)
  rw [shapeCast_a_a1_apply]

variable (m : (ℓ : Loc nD τ sig) → Buf (Elt Ideal) ℓ) (c : Dev nD)

/-- The first call leaves the reference's first layer product of the arguments in its output array. -/
theorem call0 : Gen.V2 m (Fr.outs m) c main_v16
    = lay1 (F := Ideal) (m ((c : Thread nD τ).loc main_arg0)) (norm (m ((c : Thread nD τ).loc main_arg1)))
        (m ((c : Thread nD τ).loc main_arg3)) := by
  have e0 : Gen.V1 m c main_arg0 = m ((c : Thread nD τ).loc main_arg0) := (Gen.V1_of m c main_arg0 (by decide)).trans rfl
  have e3 : Gen.V1 m c main_arg3 = m ((c : Thread nD τ).loc main_arg3) := (Gen.V1_of m c main_arg3 (by decide)).trans rfl
  have e15 : Gen.V1 m c main_v15 = shapeCast S8192x1 (norm (m ((c : Thread nD τ).loc main_arg1))) shapeCasts_S8192_S8192x1 :=
    ops0_v15 (Gen.V0 m c)
  show Function.update (Gen.V1 m c) (Proc.devRef .tc main_v16) (Fr.outs m 2 main_v16 c) (Proc.devRef .tc main_v16) = _
  rw [Function.update_self, Fr.outs_16]
  refine (Fr.final0 (Fr.Vin0 m) c).trans ?_
  exact (congr (congr (congrArg Fr.mm0 e0) e15) e3).trans (mm0_col _ _ _)

/-! ## Between the calls -/

/-- A reference that neither the first stretch nor the first call writes holds its launch contents after them. -/
theorem V2_keep (outs : Gen.Outs (F := Ideal)) (r : Ref sig .tc) (h0 : r ∉ Gen.hostOps0_W)
    (h1 : r ∉ ([main_v16] : List (Ref sig .tc))) : Gen.V2 m outs c r = m ((c : Thread nD τ).loc r) :=
  (Gen.V2_of m outs c r h1).trans ((Gen.V1_of m c r h0).trans rfl)

/-- Likewise through the second and third stretches. -/
theorem V4_keep (outs : Gen.Outs (F := Ideal)) (r : Ref sig .tc) (h0 : r ∉ Gen.hostOps0_W)
    (h1 : r ∉ ([main_v16] : List (Ref sig .tc))) (h2 : r ∉ Gen.hostOps1_W) (h3 : r ∉ Gen.hostOps1_1_W) :
    Gen.V4 m outs c r = m ((c : Thread nD τ).loc r) :=
  (Gen.V4_of m outs c r h3).trans ((Gen.V3_of m outs c r h2).trans (V2_keep m c outs r h0 h1))

/-- Likewise through the fourth stretch and the second call. -/
theorem V6_keep (outs : Gen.Outs (F := Ideal)) (r : Ref sig .tc) (h0 : r ∉ Gen.hostOps0_W)
    (h1 : r ∉ ([main_v16] : List (Ref sig .tc))) (h2 : r ∉ Gen.hostOps1_W) (h3 : r ∉ Gen.hostOps1_1_W)
    (h4 : r ∉ Gen.hostOps1_2_W) (h5 : r ∉ ([main_v50] : List (Ref sig .tc))) :
    Gen.V6 m outs c r = m ((c : Thread nD τ).loc r) :=
  (Gen.V6_of m outs c r h5).trans ((Gen.V5_of m outs c r h4).trans (V4_keep m c outs r h0 h1 h2 h3))

/-- The hidden layer as the reference computes it from its arguments. -/
def hidOf {F : FTy → Type} [FloatOps F] (a0 : (⟨Cert.ReferenceIdeal.S8192x512, .f32⟩ : BufTy).Contents (Elt F))
    (a1 a2 : (⟨Cert.ReferenceIdeal.S262144, .i32⟩ : BufTy).Contents (Elt F))
    (a3 : (⟨Cert.ReferenceIdeal.S512x256, .f32⟩ : BufTy).Contents (Elt F))
    (a4 : (⟨Cert.ReferenceIdeal.S256, .f32⟩ : BufTy).Contents (Elt F)) :
    (⟨Cert.ReferenceIdeal.S8192x256, .f32⟩ : BufTy).Contents (Elt F) :=
  relu256 (tail256 (lay1 a0 (norm a1) a3) a1 a2 (norm a2) a4)

/-- The embedding is the second layer applied to the hidden layer. -/
theorem embOf_eq {F : FTy → Type} [FloatOps F] (a0 : (⟨Cert.ReferenceIdeal.S8192x512, .f32⟩ : BufTy).Contents (Elt F))
    (a1 a2 : (⟨Cert.ReferenceIdeal.S262144, .i32⟩ : BufTy).Contents (Elt F))
    (a3 : (⟨Cert.ReferenceIdeal.S512x256, .f32⟩ : BufTy).Contents (Elt F))
    (a4 : (⟨Cert.ReferenceIdeal.S256, .f32⟩ : BufTy).Contents (Elt F))
    (a5 : (⟨Cert.ReferenceIdeal.S256x128, .f32⟩ : BufTy).Contents (Elt F))
    (a6 : (⟨Cert.ReferenceIdeal.S128, .f32⟩ : BufTy).Contents (Elt F)) :
    embOf a0 a1 a2 a3 a4 a5 a6 = tail128 (lay2 (hidOf a0 a1 a2 a3 a4) (norm a1) a5) a1 a2 (norm a2) a6 := rfl

/-- Before the second call `main_v33` holds the hidden layer of the arguments. -/
theorem hidden : Gen.V5 m (Fr.outs m) c main_v33
    = hidOf (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  have e14 : Gen.V2 m (Fr.outs m) c main_v14 = norm (m ((c : Thread nD τ).loc main_arg2)) :=
    (Gen.V2_of m (Fr.outs m) c main_v14 (by decide)).trans (ops0_v14 (Gen.V0 m c))
  refine (Gen.V5_of m (Fr.outs m) c main_v33 (by decide)).trans ?_
  refine (ops1_1_v33 (Gen.V3 m (Fr.outs m) c)).trans ?_
  unfold hidOf
  refine congrArg relu256 ?_
  refine (ops1_v32 (Gen.V2 m (Fr.outs m) c)).trans ?_
  exact congr (congr (congr (congr (congrArg tail256 (call0 m c)) (V2_keep m c _ main_arg1 (by decide) (by decide)))
    (V2_keep m c _ main_arg2 (by decide) (by decide))) e14) (V2_keep m c _ main_arg4 (by decide) (by decide))

/-! ## The second call -/

/-- The second call's whole-array product, with the row scales given as a column, is the reference's second layer
    product. -/
theorem mm1_col (x : FVec Ideal S8192x256 .f32) (n : FVec Ideal S8192 .f32) (w : FVec Ideal S256x128 .f32) :
    Fr.mm1 x (shapeCast S8192x1 n shapeCasts_S8192_S8192x1) w = lay2 (F := Ideal) x n w := by
  unfold lay2
  funext i
  obtain ⟨r, q, rfl⟩ : ∃ (r : Fin 8192) (q : Fin 128), i = ix2 r q := ⟨i 0, i 1, eq_ix2 i⟩
  refine (Fr.mm1_apply x _ w r q).trans ((Finset.sum_congr rfl fun k _ => ?_).trans
    (Cert.ReferenceIdeal.Stages.layer2_apply x n w r q).symm)
  rw [shapeCast_a_a1_apply]

/-- The second call leaves the reference's second layer product in its output array. -/
theorem call1 : Gen.V6 m (Fr.outs m) c main_v50
    = lay2 (F := Ideal) (hidOf (m ((c : Thread nD τ).loc main_arg0)) (m ((c : Thread nD τ).loc main_arg1))
          (m ((c : Thread nD τ).loc main_arg2)) (m ((c : Thread nD τ).loc main_arg3)) (m ((c : Thread nD τ).loc main_arg4)))
        (norm (m ((c : Thread nD τ).loc main_arg1))) (m ((c : Thread nD τ).loc main_arg5)) := by
  have e33 := (Fr.Vin1_eq m c main_v33).symm.trans (hidden m c)
  have e49 : Fr.Vin1 m c main_v49 = shapeCast S8192x1 (norm (m ((c : Thread nD τ).loc main_arg1))) shapeCasts_S8192_S8192x1 :=
    (Fr.Vin1_eq m c main_v49).symm.trans ((ops1_2_v49 (Gen.V4 m (Fr.outs m) c)).trans
      (congrArg (fun t => shapeCast S8192x1 (norm t) shapeCasts_S8192_S8192x1)
        (V4_keep m c _ main_arg1 (by decide) (by decide) (by decide) (by decide))))
  have e5 : Fr.Vin1 m c main_arg5 = m ((c : Thread nD τ).loc main_arg5) :=
    (Fr.Vin1_eq m c main_arg5).symm.trans ((Gen.V5_of m (Fr.outs m) c main_arg5 (by decide)).trans
      (V4_keep m c _ main_arg5 (by decide) (by decide) (by decide) (by decide)))
  show Function.update (Gen.V5 m (Fr.outs m) c) (Proc.devRef .tc main_v50) (Fr.outs m 6 main_v50 c) (Proc.devRef .tc main_v50) = _
  rw [Function.update_self, Fr.outs_50]
  refine (Fr.final1 (Fr.Vin1 m) c).trans ?_
  exact (congr (congr (congrArg Fr.mm1 e33) e49) e5).trans (mm1_col _ _ _)

/-! ## The embedding -/

/-- What the last stretch computes from the buffers the second call leaves is the embedding of the arguments. -/
theorem emb6 : tail128 (F := Ideal) (Gen.V6 m (Fr.outs m) c main_v50) (Gen.V6 m (Fr.outs m) c main_arg1)
      (Gen.V6 m (Fr.outs m) c main_arg2) (Gen.V6 m (Fr.outs m) c main_v48) (Gen.V6 m (Fr.outs m) c main_arg6)
    = embOf (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  have e48 : Gen.V6 m (Fr.outs m) c main_v48 = norm (m ((c : Thread nD τ).loc main_arg2)) :=
    (Gen.V6_of m (Fr.outs m) c main_v48 (by decide)).trans ((ops1_2_v48 (Gen.V4 m (Fr.outs m) c)).trans
      (congrArg norm (V4_keep m c _ main_arg2 (by decide) (by decide) (by decide) (by decide))))
  rw [embOf_eq]
  exact congr (congr (congr (congr (congrArg tail128 (call1 m c))
    (V6_keep m c _ main_arg1 (by decide) (by decide) (by decide) (by decide) (by decide) (by decide)))
    (V6_keep m c _ main_arg2 (by decide) (by decide) (by decide) (by decide) (by decide) (by decide))) e48)
    (V6_keep m c _ main_arg6 (by decide) (by decide) (by decide) (by decide) (by decide) (by decide))

/-- After the last stretch `main_v66` holds the embedding of the arguments. -/
theorem emb7 : Gen.V7 m (Fr.outs m) c main_v66
    = embOf (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  (ops2_v66 (Gen.V6 m (Fr.outs m) c)).trans (emb6 m c)

/-- At the end of the run `main_v66` holds the embedding of the arguments. -/
theorem emb_kernel : Gen.V8 m (Fr.outs m) c main_v66
    = embOf (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  (Gen.V8_of m (Fr.outs m) c main_v66 (by decide)).trans (emb7 m c)

end Calls

/-! ## The reconstruction -/

section Recon
open Cert.KernelIdeal Cert.KernelIdeal.Facts₀ Cert.KernelIdeal.Facts Idealize.ShloMosaic.TcCoe

/-- The third call's whole-array function of the embedding in the narrow format — a change of format that is the
    identity on extended reals — is the reference's reconstruction of the embedding. -/
theorem recon_trunc (e : FVec Ideal S8192x128 .f32) :
    Fr.recon (truncf .bf16 e bitsLt_bf16_f32) = rec (F := Ideal) e := by
  unfold rec
  funext i
  obtain ⟨r, q, rfl⟩ : ∃ (r q : Fin 8192), i = ix2 r q := ⟨i 0, i 1, eq_ix2 i⟩
  exact (Fr.recon_apply _ r q).trans (Cert.ReferenceIdeal.Stages.recon_apply e r q).symm

variable (m : (ℓ : Loc nD τ sig) → Buf (Elt Ideal) ℓ) (c : Dev nD)

/-- At the end of the run `main_v68` holds the reconstruction of the embedding of the arguments. -/
theorem logits_kernel : Gen.V8 m (Fr.outs m) c main_v68
    = rec (F := Ideal) (embOf (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) := by
  have e67 : Fr.Vin2 m c main_v67 = (truncf .bf16 (embOf (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)))
      bitsLt_bf16_f32 : FVec Ideal S8192x128 .bf16) :=
    (Fr.Vin2_eq m c main_v67).symm.trans ((ops2_v67 (Gen.V6 m (Fr.outs m) c)).trans
      (congrArg (fun t : FVec Ideal S8192x128 .f32 => (truncf .bf16 t bitsLt_bf16_f32 : FVec Ideal S8192x128 .bf16)) (emb6 m c)))
  show Function.update (Gen.V7 m (Fr.outs m) c) (Proc.devRef .tc main_v68) (Fr.outs m 8 main_v68 c) (Proc.devRef .tc main_v68) = _
  rw [Function.update_self, Fr.outs_68]
  refine (Fr.final2 (Fr.Vin2 m) c).trans ?_
  exact (congrArg Fr.recon e67).trans (recon_trunc _)

end Recon

/-! ## The two results -/

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the seven arguments, the kernel program's first result buffer ends at the reference's
    first result. -/
theorem emb_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.KernelIdeal.Gen.V8 m (Cert.KernelIdeal.Fr.outs m) c (Proc.devRef .tc Cert.KernelIdeal.main_v66)
      = Cert.ReferenceIdeal.Value.res_main_v70 m' c := by
  obtain ⟨h0, h1, h2, h3, h4, h5, h6⟩ := hagree c
  refine (emb_kernel m c).trans (Eq.symm ?_)
  refine (ref_emb m' c).trans ?_
  rw [h0, h1, h2, h3, h4, h5, h6]

/-- From memories that agree on the seven arguments, the kernel program's second result buffer ends at the reference's
    second result. -/
theorem logits_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.KernelIdeal.Gen.V8 m (Cert.KernelIdeal.Fr.outs m) c (Proc.devRef .tc Cert.KernelIdeal.main_v68)
      = Cert.ReferenceIdeal.Value.res_main_v78 m' c := by
  obtain ⟨h0, h1, h2, h3, h4, h5, h6⟩ := hagree c
  refine (logits_kernel m c).trans (Eq.symm ?_)
  refine (ref_logits m' c).trans ?_
  rw [h0, h1, h2, h3, h4, h5, h6]

end Results

end Cert.Bridge

end
-- ==== Proof.lean ====
/-
  The certificate of a two-layer graph convolution with a dense reconstruction, sigmoid(E · Eᵀ), against its jnp
  reference, over the extended reals.

  The kernel program runs the same host operations as the reference — the degree counts by scatter-add, their
  clamp at 1 and power −1/2, the gather along the (normalised) source indices and the scatter-add along the
  destination indices, the product with the destination norm, the bias and, after the first layer, the relu —
  around three kernel calls:
    * each layer's dense product: a grid of 8 row blocks; a block of `(x · norm) · W` is the matrix product of the
      block of `x`, scaled row by row by the source norm, with the whole `W`. Over the extended reals a row of the
      result is `∑ₖ (x[r,k] · norm[r]) · W[k,q]`, which is what the reference's `dot_general` of `x · norm` with `W`
      is index by index; rounding the factors to the narrow format is the identity there;
    * the reconstruction: an 8 × 8 grid of 1024 × 1024 tiles; tile (i, j) is the logistic function of the product
      of row block i of the embedding with the transpose of row block j, so entry (r, q) is
      `logistic (∑ₖ E[r,k] · E[q,k])`, the reference's `1 / (1 + exp (−(E · Eᵀ)[r,q]))`.
  The two sides differ only in how the sums are arranged and named, so no finiteness of the inputs is used.

  Frames: every call is a pipeline whose body loads its input blocks, computes one value and stores it; the program
  is the chain of five host stretches and the three calls, and no segment writes an argument array. The last call
  reads one array through two windows, which hold it at half shares. The reference is a straight line of host
  operations. The idealization rewrote nothing, so `preserves` is trivial.
-/
import proofs.«105422_j10024453669136_1_alg».proof.Defs
import proofs.«105422_j10024453669136_1_alg».proof.Proof.Gen.Kernel
import proofs.«105422_j10024453669136_1_alg».proof.Proof.Gen.KernelIdeal
import proofs.«105422_j10024453669136_1_alg».proof.Proof.Gen.ReferenceIdeal
import proofs.«105422_j10024453669136_1_alg».proof.Proof.Gen.Pre_finite_inputs
import proofs.«105422_j10024453669136_1_alg».proof.Proof.Gen.ReferenceIdeal.Run
import proofs.«105422_j10024453669136_1_alg».proof.Proof.RunAll
import proofs.«105422_j10024453669136_1_alg».proof.Proof.WRunAll
import proofs.«105422_j10024453669136_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Fr.frame m ρ
/-- So does the idealized one. -/
theorem frame_ki : Cert.frame_KernelIdeal := fun m ρ _ => Cert.KernelIdeal.Fr.frame m ρ
/-- The reference is a straight line of host operations: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals the kernel program's run ends with the embedding and the logits at the fold of its segments,
    the reference's at its operations' composed terms; from memories that agree on the arguments the two are equal
    (`Cert.Bridge.emb_eq`, `Cert.Bridge.logits_eq`). -/
theorem algebraic : Cert.algebraic_KernelIdeal_ReferenceIdeal := by
  intro m ρ m' ρ' _ hagree
  refine ⟨fun c => Cert.KernelIdeal.Gen.V8 m (Cert.KernelIdeal.Fr.outs m) c Cert.KernelIdeal.main_v66,
    fun c => Cert.KernelIdeal.Gen.V8 m (Cert.KernelIdeal.Fr.outs m) c Cert.KernelIdeal.main_v68, ?_, ?_⟩
  · exact (θ_run Cert.KernelIdeal.defs _ _).mono (fun _ h c =>
      ⟨h c _ (Cert.KernelIdeal.Fr.mem_uc Cert.KernelIdeal.main_v66 (by decide)),
       h c _ (Cert.KernelIdeal.Fr.mem_uc Cert.KernelIdeal.main_v68 (by decide)),
       (h c _ (Cert.KernelIdeal.Fr.mem_uc Cert.KernelIdeal.main_arg0 (by decide))).trans (Cert.KernelIdeal.Gen.V8_main_arg0 m _ c),
       (h c _ (Cert.KernelIdeal.Fr.mem_uc Cert.KernelIdeal.main_arg1 (by decide))).trans (Cert.KernelIdeal.Gen.V8_main_arg1 m _ c),
       (h c _ (Cert.KernelIdeal.Fr.mem_uc Cert.KernelIdeal.main_arg2 (by decide))).trans (Cert.KernelIdeal.Gen.V8_main_arg2 m _ c),
       (h c _ (Cert.KernelIdeal.Fr.mem_uc Cert.KernelIdeal.main_arg3 (by decide))).trans (Cert.KernelIdeal.Gen.V8_main_arg3 m _ c),
       (h c _ (Cert.KernelIdeal.Fr.mem_uc Cert.KernelIdeal.main_arg4 (by decide))).trans (Cert.KernelIdeal.Gen.V8_main_arg4 m _ c),
       (h c _ (Cert.KernelIdeal.Fr.mem_uc Cert.KernelIdeal.main_arg5 (by decide))).trans (Cert.KernelIdeal.Gen.V8_main_arg5 m _ c),
       (h c _ (Cert.KernelIdeal.Fr.mem_uc Cert.KernelIdeal.main_arg6 (by decide))).trans (Cert.KernelIdeal.Gen.V8_main_arg6 m _ c)⟩)
      (Cert.KernelIdeal.Fr.run_all (F := Ideal) m ρ)
  · exact (θ_run Cert.ReferenceIdeal.defs _ _).mono (fun _ h c =>
      ⟨(h c).1.trans (Cert.Bridge.emb_eq m m' hagree c).symm, (h c).2.1.trans (Cert.Bridge.logits_eq m m' hagree c).symm, (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
